-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg7
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : IVec S100000 32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S64x64 : Shape := ⟨2, ![64, 64]⟩
abbrev S100000x1 : Shape := ⟨2, ![100000, 1]⟩
abbrev S64x1 : Shape := ⟨2, ![64, 1]⟩
abbrev S1x64 : Shape := ⟨2, ![1, 64]⟩

abbrev nBuf : Space → Nat
  | .hbm => 111
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000, .i32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .bf16⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .bf16⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x64, .bf16⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .bf16⟩
  | .hbm, ⟨76, _⟩ => ⟨S1700000x64, .f32⟩
  | .hbm, ⟨77, _⟩ => ⟨S1700000x1, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S_, .f32⟩
  | .hbm, ⟨85, _⟩ => ⟨S64x64, .f32⟩
  | .hbm, ⟨86, _⟩ => ⟨S100000x1, .i32⟩
  | .hbm, ⟨87, _⟩ => ⟨S64x64, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S64, .f32⟩
  | .hbm, ⟨92, _⟩ => ⟨S100000x1, .i32⟩
  | .hbm, ⟨93, _⟩ => ⟨S64, .f32⟩
  | .hbm, ⟨94, _⟩ => ⟨S64x1, .f32⟩
  | .hbm, ⟨95, _⟩ => ⟨S_, .f32⟩
  | .hbm, ⟨96, _⟩ => ⟨S64x1, .f32⟩
  | .hbm, ⟨97, _⟩ => ⟨S64x1, .f32⟩
  | .hbm, ⟨98, _⟩ => ⟨S64x64, .f32⟩
  | .hbm, ⟨99, _⟩ => ⟨S64x64, .f32⟩
  | .hbm, ⟨100, _⟩ => ⟨S_, .f32⟩
  | .hbm, ⟨101, _⟩ => ⟨S64x1, .f32⟩
  | .hbm, ⟨102, _⟩ => ⟨S64x1, .i1⟩
  | .hbm, ⟨103, _⟩ => ⟨S1x64, .f32⟩
  | .hbm, ⟨104, _⟩ => ⟨S_, .f32⟩
  | .hbm, ⟨105, _⟩ => ⟨S_, .f32⟩
  | .hbm, ⟨106, _⟩ => ⟨S64x64, .i1⟩
  | .hbm, ⟨107, _⟩ => ⟨S64x64, .f32⟩
  | .hbm, ⟨108, _⟩ => ⟨S64x64, .f32⟩
  | .hbm, ⟨109, _⟩ => ⟨S64x64, .f32⟩
  | .hbm, ⟨110, _⟩ => ⟨S64x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x64, .f32⟩
  | .local _ .vmem, ⟨9, _⟩ => ⟨S10000x64, .bf16⟩
  | .local _ .vmem, ⟨10, _⟩ => ⟨S10000x64, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_17 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_v74 : Ref sig .tc := ⟨.hbm, 109, rfl⟩
abbrev main_v75 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .bf16 = 32 ∨ (Rect.block (s := S100000x64) S10000x64.size (cc1_transform_3 i) (hinb1_3 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .f32⟩
  | 4 => ⟨S100000, .i32⟩
  | 5 => ⟨S128x128, .f32⟩
  | 6 => ⟨S128, .f32⟩
  | 7 => ⟨S128x64, .f32⟩
  | 8 => ⟨S64, .f32⟩
  | 9 => ⟨S100000, .i32⟩
  | 10 => ⟨S1700000, .i32⟩
  | 11 => ⟨S1700000, .i32⟩
  | 12 => ⟨S_, .f32⟩
  | 13 => ⟨S100000, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S100000x128, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000, .i32⟩
  | 71 => ⟨S1700000, .i32⟩
  | 72 => ⟨S1700000, .i32⟩
  | 73 => ⟨S_, .f32⟩
  | 74 => ⟨S100000, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S100000x64, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x64, .f32⟩
  | 118 => ⟨S1700000x1, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S_, .f32⟩
  | 1 => ⟨S64x64, .f32⟩
  | 2 => ⟨S100000x1, .i32⟩
  | 3 => ⟨S64x64, .f32⟩
  | 4 => ⟨S_, .f32⟩
  | 5 => ⟨S100000, .f32⟩
  | 6 => ⟨S_, .f32⟩
  | 7 => ⟨S64, .f32⟩
  | 8 => ⟨S100000x1, .i32⟩
  | 9 => ⟨S64, .f32⟩
  | 10 => ⟨S_, .f32⟩
  | 11 => ⟨S64, .f32⟩
  | 12 => ⟨S64, .f32⟩
  | 13 => ⟨S64x1, .f32⟩
  | 14 => ⟨S64x64, .f32⟩
  | 15 => ⟨S64x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call1_cst : Ref sig .tc := ⟨.hbm, 67, rfl⟩
abbrev main_call1_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v57 : Ref sig .tc := ⟨.hbm, 87, rfl⟩
abbrev main_c_13 : Ref sig .tc := ⟨.hbm, 88, rfl⟩
abbrev main_v58 : Ref sig .tc := ⟨.hbm, 89, rfl⟩
abbrev main_v59 : Ref sig .tc := ⟨.hbm, 90, rfl⟩
abbrev main_c_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_15 : Ref sig .tc := ⟨.hbm, 98, rfl⟩
abbrev main_v66 : Ref sig .tc := ⟨.hbm, 99, rfl⟩
abbrev main_v67 : Ref sig .tc := ⟨.hbm, 100, rfl⟩
abbrev main_c_16 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_20 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_21 : Ref sig .tc := ⟨.hbm, 132, rfl⟩
abbrev main_v94 : Ref sig .tc := ⟨.hbm, 133, rfl⟩
abbrev main_cst_22 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_23 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KernelRun.lean ====
/-
  The idealized kernel's run with its result named.

  @main is nine segments: three stretches of host operations, the first product's grid, one stretch, the second
  product's grid, three stretches. The contents of every buffer at each segment boundary are a fold from the launch
  memory (`W0 … W9`): a host stretch applies its operations to the previous contents, a grid leaves each of its
  arrays at what its write-backs fold to and every other buffer as it found it. A core's thread state at a boundary is
  "every unscoped buffer holds that boundary's contents, the generator register is at some state, nothing is owed",
  and each segment takes the state before it to the state after it. So every weakly fair execution ends with every
  unscoped buffer at the last boundary's contents `W9`: read at the result buffer this names the result, read at an
  argument buffer it walks back to the launch memory.
-/
import proofs.«135830_j39642548142524_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's thread state at launch: every unscoped buffer at its launch contents, the generator register at some
    state, nothing owed. -/
abbrev Tlaunch (c : Dev nD) : sProp 𝕄 :=
  iprop(StableHlo.held (c : Thread nD τ) (Pipeline.ucRefs τ sig) (W0 m ρ c) ∗ R c)

/-- What is read of a final memory on core `c`: every unscoped buffer holds the last boundary's contents. -/
abbrev AtEnd (c : Dev nD) (s : MemSt nD τ sig (Elt F)) : Prop :=
  ∀ b ∈ Pipeline.ucRefs τ sig, s.mem (((c : Thread nD τ)).1, b) = W9 m ρ c b

/-- The last thread state beside a final state's interpretation says what that state's memory holds at every
    unscoped buffer. -/
theorem read_end (c : Dev nD) (s' : Phys nD τ sig (Elt F)) :
    iprop(Tₙ m ρ c ∗ SI s') ⊢ (|={Set.univ}=> iprop(⌜AtEnd m ρ c s'.mem⌝ ∗ SI s') : sProp 𝕄) := by
  iintro ⟨⟨Hheld, -⟩, Hsi⟩
  unfold StableHlo.held
  imodintro
  iapply (pointsTo_read_all (Pipeline.ucRefs τ sig) (fun b => (((c : Thread nD τ)).1, b)) (W9 m ρ c) s')
  isplitl [Hheld]
  · iexact Hheld
  iexact Hsi

-- unifying the launch theorem's conclusion with this statement unfolds plain definitions in a metavariable's type
set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v75) = W9 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit (pcfgs (F := F)) adm (pdats m ρ) () cellOf_inj emb₁ defs₀ 𝒱₀ L lv m ρ main (segs m ρ)
    (fun c Q => by rw [main_run m ρ c]) ?pipes (O₀ := 0) (hL := fun _ _ => rfl) (G := fun _ => iprop(emp))
    (u₀ := initOf (Pipeline.cells cfgs cellOf_inj) (Pipeline.launchToks cfgs cellOf_inj)) (hu₀ := ?launchElt)
    (T₀ := Tlaunch m ρ) (Tₙ := Tₙ m ρ) (hch := ?chain) (hinit := Pipeline.initEach L lv fun c => ?launch)
    (QY := AtEnd m ρ) (hfin := read_end m ρ) (hQ := ?post)
  case pipes =>
    -- the two grids are entered once each
    simp only [segs, Pipeline.Seg.pipes_host, Pipeline.Seg.pipes_region, Pipeline.Seg.pipes_nil]
    decide
  case launchElt =>
    -- the launch element is the pipeline library's own; no ghost resource rides beside it
    iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by
      rw [BI.bigSep_emp_const])
    iempintro
  case launch =>
    -- the launch deals a core its unscoped buffers at the launch memory, its generator register and an empty debt:
    -- that is the first thread state
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hheld, -, Howes, -, Hreg, -⟩, -⟩
    imodintro
    isplitl [Hheld]
    · iexact Hheld
    isplitl [Hreg]
    · iexists _; iexact Hreg
    iexists ∅; iexact Howes
  case chain =>
    -- each segment is entered from exactly the state the one before it leaves; the last state is `Tₙ` beside the debt
    refine ⟨fun _ => .rfl, fun _ => .rfl, fun _ => .rfl, fun _ => .rfl, fun _ => .rfl, fun _ => .rfl, fun _ => .rfl,
      fun _ => .rfl, fun _ => .rfl, fun c => ?_⟩
    dsimp only [Pipeline.Seg.post, hseg, Pipeline.HostSeg.ofOps]
    iintro ⟨Hheld, Hreg, Howes⟩
    isplitl [Hheld Hreg]
    · isplitl [Hheld]
      · iexact Hheld
      iexact Hreg
    iexact Howes
  case post =>
    intro s h c
    exact ⟨h c _ (mem_uc main_v75 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c)⟩

end Cert.KernelIdeal.RunValue

end
-- ==== Proof.LibRowIndexing.lean ====
/-
  Row gather and accumulating row scatter read at an index, for the dimension numbers that `x[idx]` and
  `segment_sum` lower to.

  A table `x : [N, F]` (or a flat array `[N]`) is indexed by an integer column `idx : [E, 1]`.
  * GATHER: result row `e` is the table's row at `idx[e, 0]`, the index read as a signed integer and clamped
    into `[0, N − 1]` (every start index of a gather is clamped so that its slice fits).
  * SCATTER with an `add` body, at the ideal instance: element `(r, f)` of the result is the operand's element plus
    the sum of the updates `upd[e, f]` over the edges `e` whose index `idx[e, 0]`, read signed and NOT clamped, is `r`;
    an index outside `[0, N)` lands nowhere and contributes nothing.
  Shapes are parameters, so each statement serves every literal shape of a program; a program's own record of
  dimension numbers is one of the records below by `rfl`.
-/
import Idealize.ShloMosaic.PureOps.Ideal
import Idealize.ShloMosaic.Lib.ValueIdx

noncomputable section

namespace Cert.Gcn

open Idealize.ShloMosaic Idealize.ShloMosaic.ValueIdx

/-! ## Gather -/

section Gather
variable {α : Type}

/-- The dimension numbers of `x[idx]` for a table `[N, F]` and an index column `[E, 1]`: the row axis collapsed
    and indexed, the feature axis kept whole. -/
abbrev rowGatherDims (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The row a gather reads for edge `e`: the index read signed, clamped into `[0, N − 1]`. -/
def clampRow {N w : Nat} (hN : 0 < N) (v : BitVec w) : Fin N := ⟨min v.toInt.toNat (N - 1), by omega⟩

/-- THE ROW GATHER AT `(e, f)`: the table at the clamped row, same feature. -/
theorem rowGather_apply {N E F w : Nat} (hN : 0 < N)
    (wf : GatherDims.WF ⟨2, ![N, F]⟩ ⟨2, ![E, 1]⟩ ⟨2, ![E, F]⟩ [1] [0] [] [0] [] 1 ![1, F])
    (x : (⟨2, ![N, F]⟩ : Shape).Idx → α) (idx : IVec ⟨2, ![E, 1]⟩ w) (e : Fin E) (f : Fin F) :
    Host.gather (rowGatherDims N E F wf) x idx (ix2 e f) = x (ix2 (clampRow hN (idx (ix2 e (0 : Fin 1)))) f) := by
  unfold Host.gather
  congr 1
  funext a
  refine Fin.ext ?_
  have hsi : (rowGatherDims N E F wf).siIdx (ix2 e f) ⟨List.idxOf (0 : Fin 2) (rowGatherDims N E F wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show (rowGatherDims N E F wf).start (ix2 e f) idx (0 : Fin 2) + (rowGatherDims N E F wf).batchCoord (ix2 e f) (0 : Fin 2)
        + (rowGatherDims N E F wf).offCoord (ix2 e f) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E F wf).startIndexMap from List.mem_singleton.mpr rfl)]
    rw [hsi]
    rfl
  | ⟨1, _⟩ =>
    show (rowGatherDims N E F wf).start (ix2 e f) idx (1 : Fin 2) + (rowGatherDims N E F wf).batchCoord (ix2 e f) (1 : Fin 2)
        + (rowGatherDims N E F wf).offCoord (ix2 e f) (1 : Fin 2) = _
    rw [GatherDims.batchCoord_eq_zero _ _ _ List.not_mem_nil]
    unfold GatherDims.start
    rw [dif_neg (show (1 : Fin 2) ∉ [(0 : Fin 2)] from by decide)]
    simp only [Nat.zero_add]
    unfold GatherDims.offCoord
    rw [dif_pos (show (1 : Fin 2) ∈ (rowGatherDims N E F wf).sKept from by
      rw [GatherDims.mem_sKept]; exact ⟨(show (1 : Fin 2) ∉ [(0 : Fin 2)] from by decide), List.not_mem_nil⟩)]
    rfl

/-- The dimension numbers of `x[idx]` for a flat array `[N]` and an index column `[E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the array at the clamped index. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating scatter -/

section Scatter

/-- The dimension numbers of `segment_sum` into a table `[N, F]` from updates `[E, F]` by an index column `[E, 1]`:
    the row axis indexed, the feature axis a window kept whole. -/
abbrev rowScatterDims (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable {N E F w : Nat} (wf : ScatterDims.WF ⟨2, ![N, F]⟩ ⟨2, ![E, 1]⟩ ⟨2, ![E, F]⟩ [1] [0] [0] 1)
  (idx : IVec ⟨2, ![E, 1]⟩ w) (e : Fin E) (f : Fin F)

/-- On the row axis an update starts at its edge's index, read signed. -/
theorem rowScatter_start0 : (rowScatterDims N E F wf).start (ix2 e f) idx (0 : Fin 2) = (idx (ix2 e (0 : Fin 1))).toInt := by
  unfold ScatterDims.start
  rw [dif_pos (show (0 : Fin 2) ∈ (rowScatterDims N E F wf).scatterDimsToOperandDims from List.mem_singleton.mpr rfl)]
  have hsi : (rowScatterDims N E F wf).siIdx (ix2 e f) ⟨List.idxOf (0 : Fin 2) (rowScatterDims N E F wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the feature axis it starts at zero. -/
theorem rowScatter_start1 : (rowScatterDims N E F wf).start (ix2 e f) idx (1 : Fin 2) = 0 := by
  unfold ScatterDims.start
  rw [dif_neg (show (1 : Fin 2) ∉ [(0 : Fin 2)] from by decide)]

/-- The row axis is no window axis. -/
theorem rowScatter_window0 : (rowScatterDims N E F wf).window (ix2 e f) (0 : Fin 2) = 0 := by
  unfold ScatterDims.window
  rw [dif_neg (show (0 : Fin 2) ∉ (rowScatterDims N E F wf).sKept from
    (by decide : (0 : Fin 2) ∉ (List.finRange 2).filter (fun a => a ∉ [(0 : Fin 2)])))]

/-- The feature axis is the window: the update's own feature. -/
theorem rowScatter_window1 : (rowScatterDims N E F wf).window (ix2 e f) (1 : Fin 2) = f.val := by
  unfold ScatterDims.window
  rw [dif_pos (show (1 : Fin 2) ∈ (rowScatterDims N E F wf).sKept from
    (by decide : (1 : Fin 2) ∈ (List.finRange 2).filter (fun a => a ∉ [(0 : Fin 2)])))]
  rfl

/-- WHERE AN UPDATE LANDS: update `(e, f)` lands on `(r, g)` exactly when the edge's index, read signed, is `r`
    and `f = g`; an index outside `[0, N)` lands nowhere. -/
theorem rowScatter_lands (r : Fin N) (g : Fin F) :
    (rowScatterDims N E F wf).resultIdx? (ix2 e f) idx = some (ix2 r g)
      ↔ (idx (ix2 e (0 : Fin 1))).toInt = (r.val : ℤ) ∧ f = g := by
  have h0 := r.isLt
  have h1 := g.isLt
  have hf := f.isLt
  unfold ScatterDims.resultIdx?
  split
  · rename_i h
    rw [Option.some.injEq]
    constructor
    · intro hi
      have e0 : ((rowScatterDims N E F wf).start (ix2 e f) idx (0 : Fin 2)
          + ((rowScatterDims N E F wf).window (ix2 e f) (0 : Fin 2) : ℤ)).toNat = r.val :=
        congrArg (fun j : (⟨2, ![N, F]⟩ : Shape).Idx => (j 0).val) hi
      have e1 : ((rowScatterDims N E F wf).start (ix2 e f) idx (1 : Fin 2)
          + ((rowScatterDims N E F wf).window (ix2 e f) (1 : Fin 2) : ℤ)).toNat = g.val :=
        congrArg (fun j : (⟨2, ![N, F]⟩ : Shape).Idx => (j 1).val) hi
      have k0 := (h (0 : Fin 2)).1
      rw [rowScatter_start0, rowScatter_window0] at e0 k0
      rw [rowScatter_start1, rowScatter_window1] at e1
      exact ⟨by omega, Fin.ext (by omega)⟩
    · rintro ⟨g0, g1⟩
      funext a
      refine Fin.ext ?_
      match a with
      | ⟨0, _⟩ =>
        show ((rowScatterDims N E F wf).start (ix2 e f) idx (0 : Fin 2) + ((rowScatterDims N E F wf).window (ix2 e f) (0 : Fin 2) : ℤ)).toNat = r.val
        rw [rowScatter_start0, rowScatter_window0]; omega
      | ⟨1, _⟩ =>
        show ((rowScatterDims N E F wf).start (ix2 e f) idx (1 : Fin 2) + ((rowScatterDims N E F wf).window (ix2 e f) (1 : Fin 2) : ℤ)).toNat = g.val
        rw [rowScatter_start1, rowScatter_window1, g1]; omega
  · rename_i h
    constructor
    · intro hi; exact absurd hi (by simp)
    · rintro ⟨g0, g1⟩
      exfalso; apply h
      intro a
      match a with
      | ⟨0, _⟩ =>
        show 0 ≤ (rowScatterDims N E F wf).start (ix2 e f) idx (0 : Fin 2) + ((rowScatterDims N E F wf).window (ix2 e f) (0 : Fin 2) : ℤ)
          ∧ (rowScatterDims N E F wf).start (ix2 e f) idx (0 : Fin 2) + ((rowScatterDims N E F wf).window (ix2 e f) (0 : Fin 2) : ℤ) < (N : ℤ)
        rw [rowScatter_start0, rowScatter_window0]; omega
      | ⟨1, _⟩ =>
        show 0 ≤ (rowScatterDims N E F wf).start (ix2 e f) idx (1 : Fin 2) + ((rowScatterDims N E F wf).window (ix2 e f) (1 : Fin 2) : ℤ)
          ∧ (rowScatterDims N E F wf).start (ix2 e f) idx (1 : Fin 2) + ((rowScatterDims N E F wf).window (ix2 e f) (1 : Fin 2) : ℤ) < (F : ℤ)
        rw [rowScatter_start1, rowScatter_window1]; omega

/-- THE ACCUMULATING ROW SCATTER AT `(r, g)`: the operand's element plus the updates `upd[e, g]` of the edges whose
    index is `r`. -/
theorem rowScatterAdd_apply (x : (⟨2, ![N, F]⟩ : Shape).Idx → EReal) (upd : (⟨2, ![E, F]⟩ : Shape).Idx → EReal)
    (r : Fin N) (g : Fin F) :
    Ideal.hostScatterAdd (rowScatterDims N E F wf) x idx upd (ix2 r g)
      = x (ix2 r g) + ∑ e : Fin E, if (idx (ix2 e (0 : Fin 1))).toInt = (r.val : ℤ) then upd (ix2 e g) else 0 := by
  unfold Ideal.hostScatterAdd
  congr 1
  rw [Finset.sum_filter, sum_idx2]
  refine Finset.sum_congr rfl fun e _ => ?_
  simp only [rowScatter_lands]
  by_cases hP : (idx (ix2 e (0 : Fin 1))).toInt = (r.val : ℤ)
  · simp only [hP, true_and, if_true]
    rw [Finset.sum_ite_eq' Finset.univ g (fun f => upd (ix2 e f))]
    exact if_pos (Finset.mem_univ _)
  · simp only [hP, false_and, if_false]
    exact Finset.sum_const_zero

end Scatter

/-! ## Accumulating scatter into a flat array -/

section VecScatter

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of `segment_sum` into a flat array `[N]` from updates `[E]` by an index column `[E, 1]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- An update starts at its edge's index, read signed. -/
theorem vecScatter_start0 : (vecScatterDims N E wf).start (ix1 e) idx (0 : Fin 1) = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- There is no window axis. -/
theorem vecScatter_window0 : (vecScatterDims N E wf).window (ix1 e) (0 : Fin 1) = 0 := by
  unfold ScatterDims.window
  rw [dif_neg (show (0 : Fin 1) ∉ (vecScatterDims N E wf).sKept from
    (by decide : (0 : Fin 1) ∉ (List.finRange 1).filter (fun a => a ∉ [(0 : Fin 1)])))]

/-- WHERE AN UPDATE LANDS: update `e` lands on `r` exactly when the edge's index, read signed, is `r`. -/
theorem vecScatter_lands (r : Fin N) :
    (vecScatterDims N E wf).resultIdx? (ix1 e) idx = some (ix1 r) ↔ (idx (ix2 e (0 : Fin 1))).toInt = (r.val : ℤ) := by
  have h0 := r.isLt
  unfold ScatterDims.resultIdx?
  split
  · rename_i h
    rw [Option.some.injEq]
    constructor
    · intro hi
      have e0 : ((vecScatterDims N E wf).start (ix1 e) idx (0 : Fin 1)
          + ((vecScatterDims N E wf).window (ix1 e) (0 : Fin 1) : ℤ)).toNat = r.val :=
        congrArg (fun j : (⟨1, ![N]⟩ : Shape).Idx => (j 0).val) hi
      have k0 := (h (0 : Fin 1)).1
      rw [vecScatter_start0, vecScatter_window0] at e0 k0
      omega
    · intro g0
      funext a
      refine Fin.ext ?_
      match a with
      | ⟨0, _⟩ =>
        show ((vecScatterDims N E wf).start (ix1 e) idx (0 : Fin 1) + ((vecScatterDims N E wf).window (ix1 e) (0 : Fin 1) : ℤ)).toNat = r.val
        rw [vecScatter_start0, vecScatter_window0]; omega
  · rename_i h
    constructor
    · intro hi; exact absurd hi (by simp)
    · intro g0
      exfalso; apply h
      intro a
      match a with
      | ⟨0, _⟩ =>
        show 0 ≤ (vecScatterDims N E wf).start (ix1 e) idx (0 : Fin 1) + ((vecScatterDims N E wf).window (ix1 e) (0 : Fin 1) : ℤ)
          ∧ (vecScatterDims N E wf).start (ix1 e) idx (0 : Fin 1) + ((vecScatterDims N E wf).window (ix1 e) (0 : Fin 1) : ℤ) < (N : ℤ)
        rw [vecScatter_start0, vecScatter_window0]; omega

/-- THE ACCUMULATING FLAT SCATTER AT `r`: the operand's element plus the updates of the edges whose index is `r`. -/
theorem vecScatterAdd_apply (x : (⟨1, ![N]⟩ : Shape).Idx → EReal) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : ℤ) then upd (ix1 e) else 0 := by
  unfold Ideal.hostScatterAdd
  congr 1
  rw [Finset.sum_filter, sum_idx1]
  refine Finset.sum_congr rfl fun e _ => ?_
  simp only [vecScatter_lands]

end VecScatter

/-! ## The same four reads, stated for the host operations at a program's own record of dimension numbers

A program names its dimension numbers by a definition; `hd` identifies that record with the one above (by `rfl`), and the
statement is then about the host operation as the program prints it, so that it rewrites without unfolding anything. -/

section Host

theorem rowGather_host {α : Type} {N E F w : Nat} (hN : 0 < N)
    (d : GatherDims ⟨2, ![N, F]⟩ ⟨2, ![E, 1]⟩ ⟨2, ![E, F]⟩)
    (wf : GatherDims.WF ⟨2, ![N, F]⟩ ⟨2, ![E, 1]⟩ ⟨2, ![E, F]⟩ [1] [0] [] [0] [] 1 ![1, F]) (hd : d = rowGatherDims N E F wf)
    (x : (⟨2, ![N, F]⟩ : Shape).Idx → α) (idx : IVec ⟨2, ![E, 1]⟩ w) (e : Fin E) (f : Fin F) :
    Host.gather d x idx (ix2 e f) = x (ix2 (clampRow hN (idx (ix2 e (0 : Fin 1)))) f) := by
  subst hd; exact rowGather_apply hN wf x idx e f

theorem vecGather_host {α : Type} {N E w : Nat} (hN : 0 < N)
    (d : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1]) (hd : d = vecGatherDims N E wf)
    (x : (⟨1, ![N]⟩ : Shape).Idx → α) (idx : IVec ⟨2, ![E, 1]⟩ w) (e : Fin E) :
    Host.gather d x idx (ix1 e) = x (ix1 (clampRow hN (idx (ix2 e (0 : Fin 1))))) := by
  subst hd; exact vecGather_apply hN wf x idx e

theorem rowScatterAdd_host {N E F w : Nat} {φ : FTy}
    (d : ScatterDims ⟨2, ![N, F]⟩ ⟨2, ![E, 1]⟩ ⟨2, ![E, F]⟩)
    (wf : ScatterDims.WF ⟨2, ![N, F]⟩ ⟨2, ![E, 1]⟩ ⟨2, ![E, F]⟩ [1] [0] [0] 1) (hd : d = rowScatterDims N E F wf)
    (x : FVec Ideal ⟨2, ![N, F]⟩ φ) (idx : IVec ⟨2, ![E, 1]⟩ w) (upd : FVec Ideal ⟨2, ![E, F]⟩ φ) (r : Fin N) (g : Fin F) :
    Host.scatterAdd d x idx upd (ix2 r g)
      = x (ix2 r g) + ∑ e : Fin E, if (idx (ix2 e (0 : Fin 1))).toInt = (r.val : ℤ) then upd (ix2 e g) else 0 := by
  subst hd
  unfold Host.scatterAdd
  rw [Ideal.hostScatterAdd_def]
  exact rowScatterAdd_apply wf idx x upd r g

theorem vecScatterAdd_host {N E w : Nat} {φ : FTy}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x : FVec Ideal ⟨1, ![N]⟩ φ) (idx : IVec ⟨2, ![E, 1]⟩ w) (upd : FVec Ideal ⟨1, ![E]⟩ φ) (r : Fin N) :
    Host.scatterAdd d x idx upd (ix1 r)
      = x (ix1 r) + ∑ e : Fin E, if (idx (ix2 e (0 : Fin 1))).toInt = (r.val : ℤ) then upd (ix1 e) else 0 := by
  subst hd
  unfold Host.scatterAdd
  rw [Ideal.hostScatterAdd_def]
  exact vecScatterAdd_apply wf idx x upd r

end Host

end Cert.Gcn

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.PoolLaw.lean ====
/-
  The law that joins the two pooling tails, on the extended reals.

  A segment mean with a bias: for a finite family of rows `e`, a membership test `p e` ("row `e` belongs to the
  segment"), row values `a e` (any extended reals) and a REAL bias `b`, write `n` for the number of members and
  `c = 0 + Σ_e [p e]·1` for the count as the programs compute it. Then

      (0 + Σ_{p e} (a e + b)) / max c 1  =  (0 + Σ_{p e} a e) / max c 1 + (if 0 < c then b else 0).

  The sum over the members splits, `Σ (a e + b) = Σ a e + n·b`, because addition of extended reals is commutative and
  associative; nothing is asked of the `a e`. For `n = 0` both sides are `0`. For `n ≥ 1` the divisor is the positive
  real `n`, division by it is the product with the nonnegative real `1/n`, and a nonnegative real distributes over
  any sum of extended reals; `(n·b)·(1/n) = b` in the reals. Only the bias has to be a real number.
-/
import Idealize.ShloMosaic.PureOps.Ideal
import Idealize.ShloMosaic.PureOps.Ideal.Laws

noncomputable section

open scoped BigOperators

namespace Cert.PoolLaw

open Idealize.ShloMosaic

/-- The f32 pattern of `1.0` is the extended real `1`. -/
theorem ofBits_one_f32 : Ideal.ofBits .f32 0x3F800000#32 = (1 : EReal) := by
  simp [Ideal.ofBits, Ideal.ieee]
  have h : (8388608 : ℝ) * ((2 : ℝ) ^ 23)⁻¹ = 1 := by norm_num
  exact_mod_cast h

/-- The indicator sum of a decidable predicate over a finite type is the number of members, as a real. -/
theorem count_eq {E : Type*} [Fintype E] (p : E → Prop) [DecidablePred p] :
    (∑ e : E, if p e then (1 : EReal) else 0) = (((Finset.univ.filter p).card : ℝ) : EReal) := by
  rw [← Finset.sum_filter, Finset.sum_const, nsmul_one, EReal.coe_coe_eq_natCast]

/-- The members' sum of `a e + b` is the members' sum of `a e` plus `n·b`. -/
theorem sum_add_bias {E : Type*} [Fintype E] (p : E → Prop) [DecidablePred p] (a : E → EReal) (b : ℝ) :
    (∑ e : E, if p e then a e + (b : EReal) else 0)
      = (∑ e : E, if p e then a e else 0) + ((((Finset.univ.filter p).card : ℝ) * b : ℝ) : EReal) := by
  rw [← Finset.sum_filter, ← Finset.sum_filter, Finset.sum_add_distrib, Finset.sum_const, ← EReal.coe_nsmul,
    nsmul_eq_mul]

/-- THE POOLING LAW (see the header). -/
theorem pool_law {E : Type*} [Fintype E] (p : E → Prop) [DecidablePred p] (a : E → EReal) (b : ℝ) :
    Ideal.div (0 + ∑ e : E, if p e then a e + (b : EReal) else 0)
        (max (0 + ∑ e : E, if p e then (1 : EReal) else 0) 1)
      = Ideal.div (0 + ∑ e : E, if p e then a e else 0)
          (max (0 + ∑ e : E, if p e then (1 : EReal) else 0) 1)
        + (if (0 : EReal) < 0 + ∑ e : E, if p e then (1 : EReal) else 0 then (b : EReal) else 0) := by
  rw [count_eq, sum_add_bias, zero_add, zero_add, zero_add]
  set n : ℕ := (Finset.univ.filter p).card with hn
  set A : EReal := ∑ e : E, if p e then a e else 0 with hA
  rcases Nat.eq_zero_or_pos n with h0 | hpos
  · -- no member: every sum is empty
    have hA0 : A = 0 := by
      have hemp : Finset.univ.filter p = ∅ := Finset.card_eq_zero.mp (hn.symm.trans h0)
      rw [hA, ← Finset.sum_filter, hemp, Finset.sum_empty]
    have h1 : max (((n : ℝ)) : EReal) 1 = ((1 : ℝ) : EReal) := by
      rw [h0]; simp
    rw [h1, Ideal.div_coe one_ne_zero, Ideal.div_coe one_ne_zero, hA0, h0]
    simp
  · -- at least one member: the divisor is the positive real n
    have hn1 : (1 : ℝ) ≤ (n : ℝ) := by exact_mod_cast hpos
    have hnne : (n : ℝ) ≠ 0 := by positivity
    have h1 : max (((n : ℝ)) : EReal) 1 = ((n : ℝ) : EReal) := by
      rw [max_eq_left]; exact_mod_cast hn1
    have hlt : (0 : EReal) < ((n : ℝ) : EReal) := by exact_mod_cast (lt_of_lt_of_le zero_lt_one hn1)
    rw [h1, if_pos hlt, Ideal.div_coe hnne, Ideal.div_coe hnne]
    have hr0 : (0 : EReal) ≤ ((1 / (n : ℝ) : ℝ) : EReal) := by
      exact_mod_cast (by positivity : (0 : ℝ) ≤ 1 / (n : ℝ))
    rw [EReal.right_distrib_of_nonneg_of_ne_top hr0 (EReal.coe_ne_top _), ← EReal.coe_mul]
    congr 2
    field_simp

end Cert.PoolLaw

end
-- ==== Proof.PoolTail.lean ====
/-
  The two pooling tails, read at an entry.

  `N` rows are pooled into `S` segments by an integer label per row (`st`); `C` is the number of columns. Both
  programs count a segment's rows by accumulating ones, `c(s) = 0 + Σ_e [st e = s]·1`.
  * One tail accumulates the rows first and folds the bias in afterwards:
      `(0 + Σ_{st e = s} agg(e,q)) / max(c(s), 1) + (if c(s) > 0 then b(q) else 0)`.
  * The other adds the bias to every row and then accumulates:
      `(0 + Σ_{st e = s} (agg(e,q) + b(q))) / max(c(s), 1)`.
  Each is written here as the array expression a program prints (accumulating scatters, broadcasts, a quotient, a
  comparison and a select), generic in the three extents, and read at the entry `(s, q)`; the two readings are the
  two sides of the pooling law (`Cert.PoolLaw.pool_law`), which asks only that the bias be a real number.
-/
import Idealize.ShloMosaic.Lib.ValueIdx
import Idealize.ShloMosaic.Lib.Pipeline.Value
import Idealize.ShloMosaic.PureOps.Ideal.Laws
import proofs.«135830_j39642548142524_2_alg».proof.Proof.LibRowIndexing
import proofs.«135830_j39642548142524_2_alg».proof.Proof.LibHostReads
import proofs.«135830_j39642548142524_2_alg».proof.Proof.PoolLaw

noncomputable section

open scoped BigOperators

namespace Cert.PoolTail

open Idealize.ShloMosaic Idealize.ShloMosaic.ValueIdx
open Cert.Gcn (rowScatterDims vecScatterDims)
open Cert.LibHostReads (splat_apply rowBias_apply col_apply colBcast_apply)

/-- The rank-0 shape of a scalar. -/
abbrev S0 : Shape := ⟨0, ![]⟩

section
variable {N S C : Nat}
  (hzS : S0.BroadcastsInDim ⟨1, ![S]⟩ ![]) (hzN : S0.BroadcastsInDim ⟨1, ![N]⟩ ![])
  (hzS1 : S0.BroadcastsInDim ⟨2, ![S, 1]⟩ ![]) (hzSC : S0.BroadcastsInDim ⟨2, ![S, C]⟩ ![])
  (hstcol : (⟨1, ![N]⟩ : Shape).BroadcastsInDim ⟨2, ![N, 1]⟩ ![0])
  (hcntcol : (⟨1, ![S]⟩ : Shape).BroadcastsInDim ⟨2, ![S, 1]⟩ ![0])
  (hcolmat : (⟨2, ![S, 1]⟩ : Shape).BroadcastsInDim ⟨2, ![S, C]⟩ ![0, 1])
  (hbrow : (⟨1, ![C]⟩ : Shape).BroadcastsInDim ⟨2, ![1, C]⟩ ![1])
  (hrowS : (⟨2, ![1, C]⟩ : Shape).BroadcastsInDim ⟨2, ![S, C]⟩ ![0, 1])
  (hrowN : (⟨2, ![1, C]⟩ : Shape).BroadcastsInDim ⟨2, ![N, C]⟩ ![0, 1])

/-- A segment's number of rows as the programs compute it: ones accumulated by label into zeros. -/
def count (dv : ScatterDims ⟨1, ![S]⟩ ⟨2, ![N, 1]⟩ ⟨1, ![N]⟩) (st : IVec ⟨1, ![N]⟩ 32) : FVec Ideal ⟨1, ![S]⟩ .f32 :=
  Host.scatterAdd dv (broadcastInDim ⟨1, ![S]⟩ ![] hzS (constant (F := Ideal) S0 .f32 0x00000000#32))
    (broadcastInDim ⟨2, ![N, 1]⟩ ![0] hstcol st)
    (broadcastInDim ⟨1, ![N]⟩ ![] hzN (constant (F := Ideal) S0 .f32 0x3F800000#32))

/-- The tail that accumulates the rows, divides by the clamped count and then adds the bias where the count is positive. -/
def biasAfter (dr : ScatterDims ⟨2, ![S, C]⟩ ⟨2, ![N, 1]⟩ ⟨2, ![N, C]⟩) (dv : ScatterDims ⟨1, ![S]⟩ ⟨2, ![N, 1]⟩ ⟨1, ![N]⟩)
    (agg : FVec Ideal ⟨2, ![N, C]⟩ .f32) (st : IVec ⟨1, ![N]⟩ 32) (b : FVec Ideal ⟨1, ![C]⟩ .f32) : FVec Ideal ⟨2, ![S, C]⟩ .f32 :=
  addf
    (Host.divf
      (Host.scatterAdd dr (broadcastInDim ⟨2, ![S, C]⟩ ![] hzSC (constant (F := Ideal) S0 .f32 0x00000000#32))
        (broadcastInDim ⟨2, ![N, 1]⟩ ![0] hstcol st) agg)
      (broadcastInDim ⟨2, ![S, C]⟩ ![0, 1] hcolmat
        (maximumf (broadcastInDim ⟨2, ![S, 1]⟩ ![0] hcntcol (count hzS hzN hstcol dv st))
          (broadcastInDim ⟨2, ![S, 1]⟩ ![] hzS1 (constant (F := Ideal) S0 .f32 0x3F800000#32)))))
    (select
      (broadcastInDim ⟨2, ![S, C]⟩ ![0, 1] hcolmat
        (cmpf .ogt (broadcastInDim ⟨2, ![S, 1]⟩ ![0] hcntcol (count hzS hzN hstcol dv st))
          (broadcastInDim ⟨2, ![S, 1]⟩ ![] hzS1 (constant (F := Ideal) S0 .f32 0x00000000#32))))
      (broadcastInDim ⟨2, ![S, C]⟩ ![0, 1] hrowS (broadcastInDim ⟨2, ![1, C]⟩ ![1] hbrow b))
      (broadcastInDim ⟨2, ![S, C]⟩ ![] hzSC (id (constant (F := Ideal) S0 .f32 0x00000000#32))))

/-- The tail that adds the bias to every row, accumulates, and divides by the clamped count. -/
def biasBefore (dr : ScatterDims ⟨2, ![S, C]⟩ ⟨2, ![N, 1]⟩ ⟨2, ![N, C]⟩) (dv : ScatterDims ⟨1, ![S]⟩ ⟨2, ![N, 1]⟩ ⟨1, ![N]⟩)
    (agg : FVec Ideal ⟨2, ![N, C]⟩ .f32) (st : IVec ⟨1, ![N]⟩ 32) (b : FVec Ideal ⟨1, ![C]⟩ .f32) : FVec Ideal ⟨2, ![S, C]⟩ .f32 :=
  Host.divf
    (Host.scatterAdd dr (broadcastInDim ⟨2, ![S, C]⟩ ![] hzSC (constant (F := Ideal) S0 .f32 0x00000000#32))
      (broadcastInDim ⟨2, ![N, 1]⟩ ![0] hstcol st)
      (addf agg (broadcastInDim ⟨2, ![N, C]⟩ ![0, 1] hrowN (broadcastInDim ⟨2, ![1, C]⟩ ![1] hbrow b))))
    (broadcastInDim ⟨2, ![S, C]⟩ ![0, 1] hcolmat
      (broadcastInDim ⟨2, ![S, 1]⟩ ![0] hcntcol
        (maximumf (count hzS hzN hstcol dv st)
          (broadcastInDim ⟨1, ![S]⟩ ![] hzS (constant (F := Ideal) S0 .f32 0x3F800000#32)))))

variable (hN : N ≠ 1) (hS : S ≠ 1) (hC : C ≠ 1)

include hN in
/-- The label column read at a row is the row's label. -/
theorem label_apply (st : IVec ⟨1, ![N]⟩ 32) (e : Fin N) :
    broadcastInDim ⟨2, ![N, 1]⟩ ![0] hstcol st (ix2 e (0 : Fin 1)) = st (ix1 e) :=
  col_apply hN hstcol st e 0

include hN in
/-- THE COUNT READ AT A SEGMENT: zero plus one for every row labelled with the segment. -/
theorem count_apply (dv : ScatterDims ⟨1, ![S]⟩ ⟨2, ![N, 1]⟩ ⟨1, ![N]⟩)
    (wfv : ScatterDims.WF ⟨1, ![S]⟩ ⟨2, ![N, 1]⟩ ⟨1, ![N]⟩ [] [0] [0] 1) (hdv : dv = vecScatterDims S N wfv)
    (st : IVec ⟨1, ![N]⟩ 32) (s : Fin S) :
    count hzS hzN hstcol dv st (ix1 s)
      = 0 + ∑ e : Fin N, if (st (ix1 e)).toInt = (s.val : ℤ) then (1 : EReal) else 0 := by
  unfold count
  rw [Cert.Gcn.vecScatterAdd_host dv wfv hdv]
  rw [splat_apply hzS]
  simp only [label_apply hstcol hN, splat_apply hzN, constant, Ideal.ofBits_def, Ideal.ofBits_zero_f32,
    Cert.PoolLaw.ofBits_one_f32]

/-- A float comparison "greater than" selecting between two values is the choice by the order. -/
theorem select_ogt (x y : EReal) (u v : EReal) :
    Scalar.select (FloatOps.cmpf (F := Ideal) (φ := .f32) .ogt x y) u v = if y < x then u else v := by
  rw [Ideal.cmpf_def]
  unfold Scalar.select Ideal.cmp
  by_cases h : y < x <;> simp [h]

include hN hS hC in
/-- THE BIAS-AFTER TAIL READ AT `(s, q)`. -/
theorem biasAfter_apply (dr : ScatterDims ⟨2, ![S, C]⟩ ⟨2, ![N, 1]⟩ ⟨2, ![N, C]⟩)
    (wfr : ScatterDims.WF ⟨2, ![S, C]⟩ ⟨2, ![N, 1]⟩ ⟨2, ![N, C]⟩ [1] [0] [0] 1) (hdr : dr = rowScatterDims S N C wfr)
    (dv : ScatterDims ⟨1, ![S]⟩ ⟨2, ![N, 1]⟩ ⟨1, ![N]⟩)
    (wfv : ScatterDims.WF ⟨1, ![S]⟩ ⟨2, ![N, 1]⟩ ⟨1, ![N]⟩ [] [0] [0] 1) (hdv : dv = vecScatterDims S N wfv)
    (agg : FVec Ideal ⟨2, ![N, C]⟩ .f32) (st : IVec ⟨1, ![N]⟩ 32) (b : FVec Ideal ⟨1, ![C]⟩ .f32) (s : Fin S) (q : Fin C) :
    biasAfter hzS hzN hzS1 hzSC hstcol hcntcol hcolmat hbrow hrowS dr dv agg st b (ix2 s q)
      = Ideal.div (0 + ∑ e : Fin N, if (st (ix1 e)).toInt = (s.val : ℤ) then agg (ix2 e q) else 0)
            (max (0 + ∑ e : Fin N, if (st (ix1 e)).toInt = (s.val : ℤ) then (1 : EReal) else 0) 1)
          + (if (0 : EReal) < 0 + ∑ e : Fin N, if (st (ix1 e)).toInt = (s.val : ℤ) then (1 : EReal) else 0
              then b (ix1 q) else 0) := by
  unfold biasAfter
  show FloatOps.addf (FloatOps.hostDivf _ _) (Scalar.select _ _ _) = _
  rw [Cert.Gcn.rowScatterAdd_host dr wfr hdr, colBcast_apply hS hcolmat, colBcast_apply hS hcolmat,
    rowBias_apply hC hbrow hrowS, splat_apply hzSC, splat_apply hzSC]
  show FloatOps.addf (FloatOps.hostDivf _ (FloatOps.maximumf _ _)) (Scalar.select (FloatOps.cmpf .ogt _ _) _ _) = _
  rw [col_apply hS hcntcol, splat_apply hzS1, splat_apply hzS1, count_apply hzS hzN hstcol hN dv wfv hdv, select_ogt]
  simp only [label_apply hstcol hN, constant, id, Ideal.ofBits_def, Ideal.ofBits_zero_f32, Cert.PoolLaw.ofBits_one_f32,
    Ideal.addf_def, Ideal.hostDivf_def, Ideal.maximumf_def]

include hN hS hC in
/-- THE BIAS-BEFORE TAIL READ AT `(s, q)`. -/
theorem biasBefore_apply (dr : ScatterDims ⟨2, ![S, C]⟩ ⟨2, ![N, 1]⟩ ⟨2, ![N, C]⟩)
    (wfr : ScatterDims.WF ⟨2, ![S, C]⟩ ⟨2, ![N, 1]⟩ ⟨2, ![N, C]⟩ [1] [0] [0] 1) (hdr : dr = rowScatterDims S N C wfr)
    (dv : ScatterDims ⟨1, ![S]⟩ ⟨2, ![N, 1]⟩ ⟨1, ![N]⟩)
    (wfv : ScatterDims.WF ⟨1, ![S]⟩ ⟨2, ![N, 1]⟩ ⟨1, ![N]⟩ [] [0] [0] 1) (hdv : dv = vecScatterDims S N wfv)
    (agg : FVec Ideal ⟨2, ![N, C]⟩ .f32) (st : IVec ⟨1, ![N]⟩ 32) (b : FVec Ideal ⟨1, ![C]⟩ .f32) (s : Fin S) (q : Fin C) :
    biasBefore hzS hzN hzSC hstcol hcntcol hcolmat hbrow hrowN dr dv agg st b (ix2 s q)
      = Ideal.div (0 + ∑ e : Fin N, if (st (ix1 e)).toInt = (s.val : ℤ) then agg (ix2 e q) + b (ix1 q) else 0)
            (max (0 + ∑ e : Fin N, if (st (ix1 e)).toInt = (s.val : ℤ) then (1 : EReal) else 0) 1) := by
  unfold biasBefore
  show FloatOps.hostDivf _ _ = _
  rw [Cert.Gcn.rowScatterAdd_host dr wfr hdr, colBcast_apply hS hcolmat, col_apply hS hcntcol, splat_apply hzSC]
  show FloatOps.hostDivf _ (FloatOps.maximumf _ _) = _
  rw [splat_apply hzS, count_apply hzS hzN hstcol hN dv wfv hdv]
  simp only [label_apply hstcol hN, addf, rowBias_apply hC hbrow hrowN, constant, Ideal.ofBits_def, Ideal.ofBits_zero_f32,
    Cert.PoolLaw.ofBits_one_f32, Ideal.addf_def, Ideal.hostDivf_def, Ideal.maximumf_def]

include hN hS hC in
/-- THE TWO TAILS AGREE when every bias entry is a real number. -/
theorem tails_agree (drA drB : ScatterDims ⟨2, ![S, C]⟩ ⟨2, ![N, 1]⟩ ⟨2, ![N, C]⟩)
    (wfr : ScatterDims.WF ⟨2, ![S, C]⟩ ⟨2, ![N, 1]⟩ ⟨2, ![N, C]⟩ [1] [0] [0] 1)
    (hdrA : drA = rowScatterDims S N C wfr) (hdrB : drB = rowScatterDims S N C wfr)
    (dvA dvB : ScatterDims ⟨1, ![S]⟩ ⟨2, ![N, 1]⟩ ⟨1, ![N]⟩)
    (wfv : ScatterDims.WF ⟨1, ![S]⟩ ⟨2, ![N, 1]⟩ ⟨1, ![N]⟩ [] [0] [0] 1)
    (hdvA : dvA = vecScatterDims S N wfv) (hdvB : dvB = vecScatterDims S N wfv)
    (agg : FVec Ideal ⟨2, ![N, C]⟩ .f32) (st : IVec ⟨1, ![N]⟩ 32) (b : FVec Ideal ⟨1, ![C]⟩ .f32)
    (hb : ∀ q : Fin C, ∃ r : ℝ, b (ix1 q) = (r : EReal)) :
    biasAfter hzS hzN hzS1 hzSC hstcol hcntcol hcolmat hbrow hrowS drA dvA agg st b
      = biasBefore hzS hzN hzSC hstcol hcntcol hcolmat hbrow hrowN drB dvB agg st b := by
  funext i
  obtain ⟨s, q, rfl⟩ : ∃ (s : Fin S) (q : Fin C), i = ix2 s q := ⟨i 0, i 1, eq_ix2 i⟩
  obtain ⟨r, hr⟩ := hb q
  rw [biasAfter_apply hzS hzN hzS1 hzSC hstcol hcntcol hcolmat hbrow hrowS hN hS hC drA wfr hdrA dvA wfv hdvA,
    biasBefore_apply hzS hzN hzSC hstcol hcntcol hcolmat hbrow hrowN hN hS hC drB wfr hdrB dvB wfv hdvB, hr]
  exact (Cert.PoolLaw.pool_law (fun e : Fin N => (st (ix1 e)).toInt = (s.val : ℤ)) (fun e => agg (ix2 e q)) r).symm

end

end Cert.PoolTail

end
-- ==== Proof.KernelHost.lean ====
/-
  The idealized kernel's host operations, one stretch at a time, against the reference's stages.

  @main's host operations come in stretches between the two grids. Each statement below takes the buffers' contents
  at the stretch's entry as an ARBITRARY valuation `V` and says what one buffer holds after the stretch: either that it
  is untouched, or — given that the buffers the stretch reads hold the reference's stages of the same arguments — that
  it holds the reference's next stage. The two programs print these lines from the same source (self-loops appended to
  the edge list, weighted in-degrees, their inverse square roots, the per-edge normalization, gathers of projected
  rows, their weighted accumulation by target node), so each equation is the two printed terms unfolding to one term;
  a format change (the kernel's projections are stored in a narrower format) is the identity on extended reals.
-/
import proofs.«135830_j39642548142524_2_alg».proof.Proof.Gen.KernelIdeal.Frame
import proofs.«135830_j39642548142524_2_alg».proof.Proof.Gen.ReferenceIdeal.Read
import proofs.«135830_j39642548142524_2_alg».proof.Proof.PoolTail

set_option maxRecDepth 16384

noncomputable section

namespace Cert.KernelHost

open Idealize.ShloMosaic Idealize.ShloMosaic.TcCoe Idealize.SL.Sem Idealize.ShloMosaic.StableHlo
open Cert.KernelIdeal Cert.KernelIdeal.Gen
open Cert.ReferenceIdeal.Read (val_main_v1 val_main_v2 val_main_v4 val_main_v9 val_main_v10 val_main_cst_2 val_main_v11
  val_main_v27 val_main_v28 val_main_v41 val_main_v74 val_main_v87)

variable (V : Valuation τ sig (Elt Ideal))

/-! ## Before the first grid: the edge list with self-loops, the degrees, the normalization -/

theorem s0_v1 : StableHlo.after hostOps0 V (Proc.devRef .tc main_v1) = val_main_v1 (F := Ideal) (V (Proc.devRef .tc main_arg1)) := by
  after_results_simp
  rfl
theorem s0_v2 : StableHlo.after hostOps0 V (Proc.devRef .tc main_v2) = val_main_v2 (F := Ideal) (V (Proc.devRef .tc main_arg2)) := by
  after_results_simp
  rfl
theorem s0_v4 : StableHlo.after hostOps0 V (Proc.devRef .tc main_v4) = val_main_v4 (F := Ideal) (V (Proc.devRef .tc main_arg3)) := by
  after_results_simp
  rfl
theorem s0_v9 : StableHlo.after hostOps0 V (Proc.devRef .tc main_v9)
    = val_main_v9 (F := Ideal) (V (Proc.devRef .tc main_arg2)) (V (Proc.devRef .tc main_arg3)) := by
  after_results_simp
  rfl
theorem s0_v10 : StableHlo.after hostOps0 V (Proc.devRef .tc main_v10)
    = val_main_v10 (F := Ideal) (V (Proc.devRef .tc main_arg2)) (V (Proc.devRef .tc main_arg3)) := by
  after_results_simp
  rfl
theorem s0_cst2 : StableHlo.after hostOps0 V (Proc.devRef .tc main_cst_2) = val_main_cst_2 (F := Ideal) := by
  after_results_simp
  rfl
theorem s0_keep_arg0 : StableHlo.after hostOps0 V (Proc.devRef .tc main_arg0) = V (Proc.devRef .tc main_arg0) := by
  after_results_simp
theorem s0_keep_arg4 : StableHlo.after hostOps0 V (Proc.devRef .tc main_arg4) = V (Proc.devRef .tc main_arg4) := by
  after_results_simp
theorem s0_keep_arg5 : StableHlo.after hostOps0 V (Proc.devRef .tc main_arg5) = V (Proc.devRef .tc main_arg5) := by
  after_results_simp
theorem s0_keep_arg6 : StableHlo.after hostOps0 V (Proc.devRef .tc main_arg6) = V (Proc.devRef .tc main_arg6) := by
  after_results_simp
theorem s0_keep_arg7 : StableHlo.after hostOps0 V (Proc.devRef .tc main_arg7) = V (Proc.devRef .tc main_arg7) := by
  after_results_simp
theorem s0_keep_arg8 : StableHlo.after hostOps0 V (Proc.devRef .tc main_arg8) = V (Proc.devRef .tc main_arg8) := by
  after_results_simp

/-- The inverse square root of a positive degree, zero otherwise: the select of the outlined `where`. -/
theorem s01_v11 (x2 : (⟨S1600000, .i32⟩ : BufTy).Contents (Elt Ideal)) (x3 : (⟨S1600000, .f32⟩ : BufTy).Contents (Elt Ideal))
    (h9 : V (Proc.devRef .tc main_v9) = val_main_v9 (F := Ideal) x2 x3) (h10 : V (Proc.devRef .tc main_v10) = val_main_v10 (F := Ideal) x2 x3)
    (hc : V (Proc.devRef .tc main_cst_2) = val_main_cst_2 (F := Ideal)) :
    StableHlo.after hostOps0_1 V (Proc.devRef .tc main_v11) = val_main_v11 (F := Ideal) x2 x3 := by
  have e : StableHlo.after hostOps0_1 V (Proc.devRef .tc main_v11)
      = select (V (Proc.devRef .tc main_v9)) (V (Proc.devRef .tc main_v10))
          (broadcastInDim S100000 ![] bcast_S_S100000 (id (V (Proc.devRef .tc main_cst_2)))) := rfl
  rw [e, h9, h10, hc]
  rfl
theorem s01_keep_v1 : StableHlo.after hostOps0_1 V (Proc.devRef .tc main_v1) = V (Proc.devRef .tc main_v1) := by
  after_results_simp
theorem s01_keep_v2 : StableHlo.after hostOps0_1 V (Proc.devRef .tc main_v2) = V (Proc.devRef .tc main_v2) := by
  after_results_simp
theorem s01_keep_v4 : StableHlo.after hostOps0_1 V (Proc.devRef .tc main_v4) = V (Proc.devRef .tc main_v4) := by
  after_results_simp
theorem s01_keep_arg0 : StableHlo.after hostOps0_1 V (Proc.devRef .tc main_arg0) = V (Proc.devRef .tc main_arg0) := by
  after_results_simp
theorem s01_keep_arg4 : StableHlo.after hostOps0_1 V (Proc.devRef .tc main_arg4) = V (Proc.devRef .tc main_arg4) := by
  after_results_simp
theorem s01_keep_arg5 : StableHlo.after hostOps0_1 V (Proc.devRef .tc main_arg5) = V (Proc.devRef .tc main_arg5) := by
  after_results_simp
theorem s01_keep_arg6 : StableHlo.after hostOps0_1 V (Proc.devRef .tc main_arg6) = V (Proc.devRef .tc main_arg6) := by
  after_results_simp
theorem s01_keep_arg7 : StableHlo.after hostOps0_1 V (Proc.devRef .tc main_arg7) = V (Proc.devRef .tc main_arg7) := by
  after_results_simp
theorem s01_keep_arg8 : StableHlo.after hostOps0_1 V (Proc.devRef .tc main_arg8) = V (Proc.devRef .tc main_arg8) := by
  after_results_simp

/-- The per-edge normalization `dinv[src]·w·dinv[dst]`. -/
theorem s02_v27 (x1 x2 : (⟨S1600000, .i32⟩ : BufTy).Contents (Elt Ideal)) (x3 : (⟨S1600000, .f32⟩ : BufTy).Contents (Elt Ideal))
    (h1 : V (Proc.devRef .tc main_v1) = val_main_v1 (F := Ideal) x1) (h2 : V (Proc.devRef .tc main_v2) = val_main_v2 (F := Ideal) x2)
    (h4 : V (Proc.devRef .tc main_v4) = val_main_v4 (F := Ideal) x3) (h11 : V (Proc.devRef .tc main_v11) = val_main_v11 (F := Ideal) x2 x3) :
    StableHlo.after hostOps0_2 V (Proc.devRef .tc main_v27) = val_main_v27 (F := Ideal) x1 x2 x3 := by
  after_results_simp
  rw [h1, h2, h4, h11]
  rfl
theorem s02_keep_v1 : StableHlo.after hostOps0_2 V (Proc.devRef .tc main_v1) = V (Proc.devRef .tc main_v1) := by
  after_results_simp
theorem s02_keep_v2 : StableHlo.after hostOps0_2 V (Proc.devRef .tc main_v2) = V (Proc.devRef .tc main_v2) := by
  after_results_simp
theorem s02_keep_arg0 : StableHlo.after hostOps0_2 V (Proc.devRef .tc main_arg0) = V (Proc.devRef .tc main_arg0) := by
  after_results_simp
theorem s02_keep_arg4 : StableHlo.after hostOps0_2 V (Proc.devRef .tc main_arg4) = V (Proc.devRef .tc main_arg4) := by
  after_results_simp
theorem s02_keep_arg5 : StableHlo.after hostOps0_2 V (Proc.devRef .tc main_arg5) = V (Proc.devRef .tc main_arg5) := by
  after_results_simp
theorem s02_keep_arg6 : StableHlo.after hostOps0_2 V (Proc.devRef .tc main_arg6) = V (Proc.devRef .tc main_arg6) := by
  after_results_simp
theorem s02_keep_arg7 : StableHlo.after hostOps0_2 V (Proc.devRef .tc main_arg7) = V (Proc.devRef .tc main_arg7) := by
  after_results_simp
theorem s02_keep_arg8 : StableHlo.after hostOps0_2 V (Proc.devRef .tc main_arg8) = V (Proc.devRef .tc main_arg8) := by
  after_results_simp

/-! ## Between the grids: the first layer's messages gathered, scaled and accumulated; the bias as a row -/

/-- The first layer's aggregate: the first grid's projections (whatever array holds them, read as extended reals)
    gathered by source node, scaled by the normalization and accumulated by target node. -/
theorem s1_v42 (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x5 : (⟨S128x128, .f32⟩ : BufTy).Contents (Elt Ideal))
    (h1 : V (Proc.devRef .tc main_v1) = val_main_v1 (F := Ideal) x1) (h2 : V (Proc.devRef .tc main_v2) = val_main_v2 (F := Ideal) x2)
    (h27 : V (Proc.devRef .tc main_v27) = val_main_v27 (F := Ideal) x1 x2 x3)
    (h28 : (V (Proc.devRef .tc main_v28) : S100000x128.Idx → EReal) = val_main_v28 (F := Ideal) x0 x5) :
    StableHlo.after hostOps1 V (Proc.devRef .tc main_v42) = val_main_v41 (F := Ideal) x0 x1 x2 x3 x5 := by
  after_results_simp
  rw [h1, h2, h27, h28]
  rfl
/-- The first bias as one row. -/
theorem s1_v43 : StableHlo.after hostOps1 V (Proc.devRef .tc main_v43)
    = shapeCast S1x128 (V (Proc.devRef .tc main_arg6)) shapeCasts_S128_S1x128 := by
  after_results_simp
  rfl
theorem s1_keep_v1 : StableHlo.after hostOps1 V (Proc.devRef .tc main_v1) = V (Proc.devRef .tc main_v1) := by
  after_results_simp
theorem s1_keep_v2 : StableHlo.after hostOps1 V (Proc.devRef .tc main_v2) = V (Proc.devRef .tc main_v2) := by
  after_results_simp
theorem s1_keep_v27 : StableHlo.after hostOps1 V (Proc.devRef .tc main_v27) = V (Proc.devRef .tc main_v27) := by
  after_results_simp
theorem s1_keep_arg4 : StableHlo.after hostOps1 V (Proc.devRef .tc main_arg4) = V (Proc.devRef .tc main_arg4) := by
  after_results_simp
theorem s1_keep_arg7 : StableHlo.after hostOps1 V (Proc.devRef .tc main_arg7) = V (Proc.devRef .tc main_arg7) := by
  after_results_simp
theorem s1_keep_arg8 : StableHlo.after hostOps1 V (Proc.devRef .tc main_arg8) = V (Proc.devRef .tc main_arg8) := by
  after_results_simp

/-! ## After the second grid: the second layer's aggregate, the pooling by label, the bias folded in -/

/-- The pooled aggregate over the clamped count. -/
theorem s2_v70 (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal))
    (h1 : V (Proc.devRef .tc main_v1) = val_main_v1 (F := Ideal) x1) (h2 : V (Proc.devRef .tc main_v2) = val_main_v2 (F := Ideal) x2)
    (h27 : V (Proc.devRef .tc main_v27) = val_main_v27 (F := Ideal) x1 x2 x3)
    (h44 : (V (Proc.devRef .tc main_v44) : S100000x64.Idx → EReal) = val_main_v74 (F := Ideal) x0 x1 x2 x3 x5 x6 x7) :
    StableHlo.after hostOps2 V (Proc.devRef .tc main_v70)
      = Host.divf
          (Host.scatterAdd scatter_S64x64_S100000x1_S100000x64_1_0_0_1
            (broadcastInDim S64x64 ![] bcast_S_S64x64 (constant (F := Ideal) S_ .f32 0x00000000#32))
            (broadcastInDim S100000x1 ![0] bcast_S100000_S100000x1_0 (V (Proc.devRef .tc main_arg4)))
            (val_main_v87 (F := Ideal) x0 x1 x2 x3 x5 x6 x7))
          (broadcastInDim S64x64 ![0, 1] bcast_S64x1_S64x64_0_1
            (maximumf (broadcastInDim S64x1 ![0] bcast_S64_S64x1_0 (Cert.PoolTail.count bcast_S_S64 bcast_S_S100000 bcast_S100000_S100000x1_0 scatter_S64_S100000x1_S100000_n_0_0_1 (V (Proc.devRef .tc main_arg4))))
              (broadcastInDim S64x1 ![] bcast_S_S64x1 (constant (F := Ideal) S_ .f32 0x3F800000#32)))) := by
  after_results_simp
  rw [h1, h2, h27, h44]
  rfl
/-- Whether a segment has a row. -/
theorem s2_v72 : StableHlo.after hostOps2 V (Proc.devRef .tc main_v72)
    = cmpf .ogt (broadcastInDim S64x1 ![0] bcast_S64_S64x1_0 (Cert.PoolTail.count bcast_S_S64 bcast_S_S100000 bcast_S100000_S100000x1_0 scatter_S64_S100000x1_S100000_n_0_0_1 (V (Proc.devRef .tc main_arg4))))
        (broadcastInDim S64x1 ![] bcast_S_S64x1 (constant (F := Ideal) S_ .f32 0x00000000#32)) := by
  after_results_simp
  rfl
/-- The second bias as one row. -/
theorem s2_v73 : StableHlo.after hostOps2 V (Proc.devRef .tc main_v73)
    = broadcastInDim S1x64 ![1] bcast_S64_S1x64_1 (V (Proc.devRef .tc main_arg8)) := by
  after_results_simp
theorem s2_cst17 : StableHlo.after hostOps2 V (Proc.devRef .tc main_cst_17) = constant (F := Ideal) S_ .f32 0x00000000#32 := by
  after_results_simp

/-- The outlined `where`: the bias row where the segment has a row, zero elsewhere. -/
theorem s21_v74 : StableHlo.after hostOps2_1 V (Proc.devRef .tc main_v74)
    = select (broadcastInDim S64x64 ![0, 1] bcast_S64x1_S64x64_0_1 (V (Proc.devRef .tc main_v72)))
        (broadcastInDim S64x64 ![0, 1] bcast_S1x64_S64x64_0_1 (V (Proc.devRef .tc main_v73)))
        (broadcastInDim S64x64 ![] bcast_S_S64x64 (id (V (Proc.devRef .tc main_cst_17)))) := rfl
theorem s21_keep_v70 : StableHlo.after hostOps2_1 V (Proc.devRef .tc main_v70) = V (Proc.devRef .tc main_v70) := by
  after_results_simp

theorem s22_v75 : StableHlo.after hostOps2_2 V (Proc.devRef .tc main_v75)
    = addf (F := Ideal) (s := S64x64) (φ := .f32) (V (Proc.devRef .tc main_v70)) (V (Proc.devRef .tc main_v74)) := by
  after_results_simp

/-- THE RESULT after the three stretches that follow the second grid: the bias-after pooling tail of the second
    layer's aggregate, the labels and the second bias. -/
theorem tail_v75 (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal))
    (h1 : V (Proc.devRef .tc main_v1) = val_main_v1 (F := Ideal) x1) (h2 : V (Proc.devRef .tc main_v2) = val_main_v2 (F := Ideal) x2)
    (h27 : V (Proc.devRef .tc main_v27) = val_main_v27 (F := Ideal) x1 x2 x3)
    (h44 : (V (Proc.devRef .tc main_v44) : S100000x64.Idx → EReal) = val_main_v74 (F := Ideal) x0 x1 x2 x3 x5 x6 x7) :
    StableHlo.after hostOps2_2 (StableHlo.after hostOps2_1 (StableHlo.after hostOps2 V)) (Proc.devRef .tc main_v75)
      = Cert.PoolTail.biasAfter bcast_S_S64 bcast_S_S100000 bcast_S_S64x1 bcast_S_S64x64 bcast_S100000_S100000x1_0 bcast_S64_S64x1_0
      bcast_S64x1_S64x64_0_1 bcast_S64_S1x64_1 bcast_S1x64_S64x64_0_1
          scatter_S64x64_S100000x1_S100000x64_1_0_0_1 scatter_S64_S100000x1_S100000_n_0_0_1
          (val_main_v87 (F := Ideal) x0 x1 x2 x3 x5 x6 x7) (V (Proc.devRef .tc main_arg4)) (V (Proc.devRef .tc main_arg8)) := by
  rw [s22_v75, s21_v74, s21_keep_v70, s2_v70 V x0 x1 x2 x3 x5 x6 x7 h1 h2 h27 h44, s2_v72, s2_v73, s2_cst17]
  rfl

end Cert.KernelHost

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.KernelGrids.lean ====
/-
  What the two grids leave in their output arrays.

  Each grid walks ten blocks of 10000 rows. At block `t` the body loads rows `10000·t … 10000·t + 9999` of its
  left operand (all 128 columns) and the whole of its small operands, and stores one block of the same rows of the
  output. A row of a matrix product depends on that row of the left factor alone, so the block the body stores is the
  same rows of ONE whole-array product:
  * first grid: `X·W` for the node features `X` and the first weight matrix `W`;
  * second grid: `max(A + b, 0)·W'` for the first layer's aggregate `A`, the bias row `b` repeated down the rows and
    the second weight matrix `W'`.
  The ten blocks tile the output array (row `r` is in block `r / 10000`), so after the grid the array is that whole
  product. The stored format is narrower than the accumulator's; on extended reals a format change is the identity.
-/
import proofs.«135830_j39642548142524_2_alg».proof.Proof.Gen.KernelIdeal.Frame
import proofs.«135830_j39642548142524_2_alg».proof.Proof.LibRowBlockDot
import proofs.«135830_j39642548142524_2_alg».proof.Proof.LibHostReads
import Idealize.ShloMosaic.Lib.ValueLayout

set_option maxRecDepth 16384

noncomputable section

namespace Cert.KernelGrids

open Idealize.ShloMosaic Idealize.ShloMosaic.TcCoe Idealize.SL.Sem Idealize.ShloMosaic.ValueIdx
open Cert.KernelIdeal Cert.KernelIdeal.Gen
open Idealize.ShloMosaic.Pipeline (Dat)

theorem zero_offsets : (![0, 0] : Fin 2 → Nat) = fun _ => 0 := funext fun a => by fin_cases a <;> rfl

/-- The first grid's whole-array product `X·W`, as extended reals. -/
def prod0 (X : FVec Ideal ⟨2, ![100000, 128]⟩ .f32) (W : FVec Ideal ⟨2, ![128, 128]⟩ .f32) :
    (⟨2, ![100000, 128]⟩ : Shape).Idx → EReal :=
  fun i => Host.dotGeneral (F := Ideal) (φ₁ := .f32) (φ₂ := .f32) (DotDims.plain 100000 128 128) none X W i

/-- The second grid's whole-array product `H·W'`, as extended reals. -/
def prod1 (H : FVec Ideal ⟨2, ![100000, 128]⟩ .f32) (W : FVec Ideal ⟨2, ![128, 64]⟩ .f32) :
    (⟨2, ![100000, 64]⟩ : Shape).Idx → EReal :=
  fun i => Host.dotGeneral (F := Ideal) (φ₁ := .f32) (φ₂ := .f32) (DotDims.plain 100000 128 64) none H W i

/-! ## The bodies' stored values at an entry -/

/-- First body: the stored entry `j` of a block whose rows are the rows `row a` of `X` is entry `i` of `X·W`, where
    `i`'s row is `row (j 0)` and the columns agree. -/
theorem pay0_apply (X : FVec Ideal ⟨2, ![100000, 128]⟩ .f32) (W : FVec Ideal ⟨2, ![128, 128]⟩ .f32)
    (x0 : Vec Ideal S10000x128 .f32) (x1 : Vec Ideal S128x128 .f32) (row : Fin 10000 → Fin 100000)
    (hA : ∀ a k, x0 (ix2 a k) = X (ix2 (row a) k)) (hB : ∀ k b, x1 (ix2 k b) = W (ix2 k b))
    (j : S10000x128.Idx) (i : S100000x128.Idx) (h0 : (i 0).val = (row (j 0)).val) (h1 : (i 1).val = (j 1).val) :
    k0_pay1 x0 x1 j = Host.dotGeneral (DotDims.plain 100000 128 128) none X W i := by
  unfold k0_pay1
  exact Cert.LibRowBlockDot.matmul_rowBlock_apply_idx (ψ₁ := .bf16) (ψ₂ := .bf16) none none X W x0 x1 row hA hB j i h0 h1

/-- The second grid's left factor as a whole array: the aggregate plus the bias row, clamped below at zero. -/
def hidden (h1 : (⟨1, ![128]⟩ : Shape).BroadcastsInDim ⟨2, ![1, 128]⟩ ![1])
    (h2 : (⟨2, ![1, 128]⟩ : Shape).BroadcastsInDim ⟨2, ![100000, 128]⟩ ![0, 1])
    (hz : (⟨0, ![]⟩ : Shape).BroadcastsInDim ⟨2, ![100000, 128]⟩ ![])
    (A : FVec Ideal ⟨2, ![100000, 128]⟩ .f32) (b : FVec Ideal ⟨1, ![128]⟩ .f32) : FVec Ideal ⟨2, ![100000, 128]⟩ .f32 :=
  maximumf (addf A (broadcastInDim ⟨2, ![100000, 128]⟩ ![0, 1] h2 (broadcastInDim ⟨2, ![1, 128]⟩ ![1] h1 b)))
    (broadcastInDim ⟨2, ![100000, 128]⟩ ![] hz (constant (F := Ideal) ⟨0, ![]⟩ .f32 0x00000000#32))

/-- Second body: the stored entry `j` of a block whose rows are the rows `row a` of `A`, with the bias row `b`, is
    entry `i` of `max(A + b, 0)·W'`. -/
theorem pay1_apply (h1 : (⟨1, ![128]⟩ : Shape).BroadcastsInDim ⟨2, ![1, 128]⟩ ![1])
    (h2 : (⟨2, ![1, 128]⟩ : Shape).BroadcastsInDim ⟨2, ![100000, 128]⟩ ![0, 1])
    (hz : (⟨0, ![]⟩ : Shape).BroadcastsInDim ⟨2, ![100000, 128]⟩ ![])
    (A : FVec Ideal ⟨2, ![100000, 128]⟩ .f32) (b : FVec Ideal ⟨1, ![128]⟩ .f32) (W : FVec Ideal ⟨2, ![128, 64]⟩ .f32)
    (x0 : Vec Ideal S10000x128 .f32) (x1 : Vec Ideal S1x128 .f32) (x2 : Vec Ideal S128x64 .f32) (row : Fin 10000 → Fin 100000)
    (hA : ∀ a k, x0 (ix2 a k) = A (ix2 (row a) k)) (hb : ∀ k : Fin 128, x1 (ix2 (0 : Fin 1) k) = b (ix1 k))
    (hW : ∀ k q, x2 (ix2 k q) = W (ix2 k q))
    (j : S10000x64.Idx) (i : S100000x64.Idx) (h0 : (i 0).val = (row (j 0)).val) (h1' : (i 1).val = (j 1).val) :
    k1_pay1 x0 x1 x2 j = Host.dotGeneral (DotDims.plain 100000 128 64) none (hidden h1 h2 hz A b) W i := by
  unfold k1_pay1
  refine Cert.LibRowBlockDot.matmul_rowBlock_apply_idx (ψ₁ := .bf16) (ψ₂ := .bf16) none none (hidden h1 h2 hz A b) W
    (maximumf (F := Ideal) (φ := .f32) (addf (shapeCast S10000x128 x0 shapeCasts_S10000x128_S10000x128)
        (broadcastTo S10000x128 (shapeCast S1x128 x1 shapeCasts_S1x128_S1x128) broadcasts_S1x128_S10000x128))
      (broadcast S10000x128 (Scalar.ofBits .f32 0x00000000#32)))
    x2 row (fun a k => ?_) hW j i h0 h1'
  unfold hidden
  show FloatOps.maximumf (FloatOps.addf (shapeCast S10000x128 x0 shapeCasts_S10000x128_S10000x128 (ix2 a k))
        (broadcastTo S10000x128 (shapeCast S1x128 x1 shapeCasts_S1x128_S1x128) broadcasts_S1x128_S10000x128 (ix2 a k)))
      (Scalar.ofBits .f32 0x00000000#32)
    = FloatOps.maximumf (FloatOps.addf (A (ix2 (row a) k)) _) _
  rw [shapeCast_self, shapeCast_self, broadcastTo_1b_ab_apply, hA, hb,
    Cert.LibHostReads.rowBias_apply (by decide) h1 h2, Cert.LibHostReads.splat_apply hz]
  rfl

/-! ## The first grid's output array -/

section Grids
variable (V : (c : Dev nD) → (b : Ref sig .tc) → Buf (Elt Ideal) ((c : Thread nD τ).loc b)) (c : Dev nD)

/-- The printed index maps of the first grid, decided over its ten points: the row windows sit at block `t`, the small
    operands at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` OF THE FIRST GRID WRITES BACK is block `t` of `X·W`. -/
theorem flushed0 (t : Fin cfg0.N) :
    (dat0 V c).flushed 2 t = ((cfg0.win 2).blk t).view.read (Elt Ideal)
      (prod0 (V c main_arg0) (V c main_arg5)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨e00, e01, e10, e11, e20, e21⟩ := idx0 t
  have ht : t.val < 10 := t.isLt
  funext j
  show k0_pay1 (iblk0 V c 0 t) (iblk0 V c 1 t) j
    = prod0 (V c main_arg0) (V c main_arg5) (((cfg0.win 2).blk t).view.emb j)
  have hj0 : (j 0).val < 10000 := (j 0).isLt
  refine pay0_apply (V c main_arg0) (V c main_arg5) (iblk0 V c 0 t) (iblk0 V c 1 t)
    (fun a => ⟨t.val * 10000 + a.val, by have := a.isLt; omega⟩) (fun a k => ?_) (fun k b => ?_) j _ ?_ ?_
  · show V c main_arg0 (((cfg0.win 0).blk t).view.emb (ix2 a k)) = V c main_arg0 (ix2 _ k)
    refine congrArg _ (funext fun d => Fin.ext ?_)
    match d with
    | ⟨0, _⟩ => show win0_0.index t (0 : Fin 2) * 10000 + 1 * a.val = t.val * 10000 + a.val; omega
    | ⟨1, _⟩ => show win0_0.index t (1 : Fin 2) * 128 + 1 * k.val = k.val; omega
  · show V c main_arg5 (((cfg0.win 1).blk t).view.emb (ix2 k b)) = V c main_arg5 (ix2 k b)
    refine congrArg _ (funext fun d => Fin.ext ?_)
    match d with
    | ⟨0, _⟩ => show win0_1.index t (0 : Fin 2) * 128 + 1 * k.val = k.val; omega
    | ⟨1, _⟩ => show win0_1.index t (1 : Fin 2) * 128 + 1 * b.val = b.val; omega
  · show win0_2.index t (0 : Fin 2) * 10000 + 1 * (j 0).val = t.val * 10000 + (j 0).val; omega
  · show win0_2.index t (1 : Fin 2) * 128 + 1 * (j 1).val = (j 1).val; omega

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v28).slice (win0_2.rect t)).set ↔ _
  rw [View.set_slice_whole, Rect.mem_set_unit]
  exact Iff.rfl

/-- Row `r` of the output is in block `r / 10000`: the ten blocks cover the array. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 10000 < 10 := by omega
  obtain ⟨-, -, -, -, e20, e21⟩ := idx0 (⟨(i 0).val / 10000, hlt⟩ : Fin cfg0.N)
  have e20' : win0_2.index (⟨(i 0).val / 10000, hlt⟩ : Fin cfg0.N) (0 : Fin 2) = (i 0).val / 10000 := e20
  refine ⟨⟨(i 0).val / 10000, hlt⟩, flush0_2 _, (mem_blk0 _ i).2 fun a => ?_⟩
  match a with
  | ⟨0, _⟩ =>
    show win0_2.index _ (0 : Fin 2) * 10000 ≤ (i 0).val ∧ (i 0).val < win0_2.index _ (0 : Fin 2) * 10000 + 10000
    omega
  | ⟨1, _⟩ =>
    show win0_2.index _ (1 : Fin 2) * 128 ≤ (i 1).val ∧ (i 1).val < win0_2.index _ (1 : Fin 2) * 128 + 128
    omega

/-- AFTER THE FIRST GRID its output array holds `X·W` of the arrays the grid found. -/
theorem grid0_array : (dat0 V c).arrAt 2 cfg0.N
    = prod0 (V c main_arg0) (V c main_arg5) :=
  (dat0 V c).arrAt_eq_of_cover 2 _ (fun t _ => flushed0 V c t) cover0

/-! ## The second grid's output array -/

/-- The printed index maps of the second grid, decided over its ten points. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (h1 : (⟨1, ![128]⟩ : Shape).BroadcastsInDim ⟨2, ![1, 128]⟩ ![1])
  (h2 : (⟨2, ![1, 128]⟩ : Shape).BroadcastsInDim ⟨2, ![100000, 128]⟩ ![0, 1])
  (hz : (⟨0, ![]⟩ : Shape).BroadcastsInDim ⟨2, ![100000, 128]⟩ ![])
  (b : FVec Ideal ⟨1, ![128]⟩ .f32) (hrow : ∀ k : Fin 128, V c main_v43 (ix2 (0 : Fin 1) k) = b (ix1 k))

include hrow in
/-- WHAT POINT `t` OF THE SECOND GRID WRITES BACK is block `t` of `max(A + b, 0)·W'`. -/
theorem flushed1 (t : Fin cfg1.N) :
    (dat1 V c).flushed 3 t = ((cfg1.win 3).blk t).view.read (Elt Ideal)
      (prod1 (hidden h1 h2 hz (V c main_v42) b) (V c main_arg7)) := by
  show (cfg1.win 3).cut (grid1.coords t) ((dat1 V c).after 3 t) = _
  rw [after1_3]
  unfold out1_3
  rw [View.canon_unit_zero zero_offsets]
  simp only [View.ld_unit_zero (S := S10000x128) zero_offsets, View.ld_unit_zero (S := S1x128) zero_offsets,
    View.ld_unit_zero (S := S128x64) zero_offsets]
  obtain ⟨e00, e01, e10, e11, e20, e21, e30, e31⟩ := idx1 t
  have ht : t.val < 10 := t.isLt
  funext j
  show k1_pay1 (iblk1 V c 0 t) (iblk1 V c 1 t) (iblk1 V c 2 t) j
    = prod1 (hidden h1 h2 hz (V c main_v42) b) (V c main_arg7) (((cfg1.win 3).blk t).view.emb j)
  have hj0 : (j 0).val < 10000 := (j 0).isLt
  refine pay1_apply h1 h2 hz (V c main_v42) b (V c main_arg7) (iblk1 V c 0 t) (iblk1 V c 1 t) (iblk1 V c 2 t)
    (fun a => ⟨t.val * 10000 + a.val, by have := a.isLt; omega⟩) (fun a k => ?_) (fun k => ?_) (fun k q => ?_) j _ ?_ ?_
  · show V c main_v42 (((cfg1.win 0).blk t).view.emb (ix2 a k)) = V c main_v42 (ix2 _ k)
    refine congrArg _ (funext fun d => Fin.ext ?_)
    match d with
    | ⟨0, _⟩ => show win1_0.index t (0 : Fin 2) * 10000 + 1 * a.val = t.val * 10000 + a.val; omega
    | ⟨1, _⟩ => show win1_0.index t (1 : Fin 2) * 128 + 1 * k.val = k.val; omega
  · refine Eq.trans ?_ (hrow k)
    show V c main_v43 (((cfg1.win 1).blk t).view.emb (ix2 (0 : Fin 1) k)) = V c main_v43 (ix2 (0 : Fin 1) k)
    refine congrArg _ (funext fun d => Fin.ext ?_)
    match d with
    | ⟨0, _⟩ => show win1_1.index t (0 : Fin 2) * 1 + 1 * 0 = 0; omega
    | ⟨1, _⟩ => show win1_1.index t (1 : Fin 2) * 128 + 1 * k.val = k.val; omega
  · show V c main_arg7 (((cfg1.win 2).blk t).view.emb (ix2 k q)) = V c main_arg7 (ix2 k q)
    refine congrArg _ (funext fun d => Fin.ext ?_)
    match d with
    | ⟨0, _⟩ => show win1_2.index t (0 : Fin 2) * 128 + 1 * k.val = k.val; omega
    | ⟨1, _⟩ => show win1_2.index t (1 : Fin 2) * 64 + 1 * q.val = q.val; omega
  · show win1_3.index t (0 : Fin 2) * 10000 + 1 * (j 0).val = t.val * 10000 + (j 0).val; omega
  · show win1_3.index t (1 : Fin 2) * 64 + 1 * (j 1).val = (j 1).val; omega

theorem mem_blk1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v44).slice (win1_3.rect t)).set ↔ _
  rw [View.set_slice_whole, Rect.mem_set_unit]
  exact Iff.rfl

theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hlt : (i 0).val / 10000 < 10 := by omega
  obtain ⟨-, -, -, -, -, -, e30, e31⟩ := idx1 (⟨(i 0).val / 10000, hlt⟩ : Fin cfg1.N)
  have e30' : win1_3.index (⟨(i 0).val / 10000, hlt⟩ : Fin cfg1.N) (0 : Fin 2) = (i 0).val / 10000 := e30
  refine ⟨⟨(i 0).val / 10000, hlt⟩, flush1_3 _, (mem_blk1 _ i).2 fun a => ?_⟩
  match a with
  | ⟨0, _⟩ =>
    show win1_3.index _ (0 : Fin 2) * 10000 ≤ (i 0).val ∧ (i 0).val < win1_3.index _ (0 : Fin 2) * 10000 + 10000
    omega
  | ⟨1, _⟩ =>
    show win1_3.index _ (1 : Fin 2) * 64 ≤ (i 1).val ∧ (i 1).val < win1_3.index _ (1 : Fin 2) * 64 + 64
    omega

include hrow in
/-- AFTER THE SECOND GRID its output array holds `max(A + b, 0)·W'` of the arrays the grid found. -/
theorem grid1_array : (dat1 V c).arrAt 3 cfg1.N
    = prod1 (hidden h1 h2 hz (V c main_v42) b) (V c main_arg7) :=
  (dat1 V c).arrAt_eq_of_cover 3 _ (fun t _ => flushed1 V c h1 h2 hz b hrow t) cover1

end Grids

end Cert.KernelGrids

end
-- ==== Proof.RefTail.lean ====
/-
  The reference's last stage is the bias-before pooling tail.

  The reference adds the second bias to every row of the second layer's aggregate, accumulates the rows by label into
  zeros and divides by the count clamped below at one. Its printed stages, from the aggregate on, unfold to that
  array expression (`Cert.PoolTail.biasBefore`) of the aggregate, the labels and the bias.
-/
import proofs.«135830_j39642548142524_2_alg».proof.Proof.Gen.ReferenceIdeal.Read
import proofs.«135830_j39642548142524_2_alg».proof.Proof.PoolTail

set_option maxRecDepth 16384

noncomputable section

namespace Cert.RefTail

open Idealize.ShloMosaic
open Cert.ReferenceIdeal Cert.ReferenceIdeal.Gen Cert.ReferenceIdeal.Read

theorem last_stage (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S100000, .i32⟩ : BufTy).Contents (Elt Ideal))
    (x5 : (⟨S128x128, .f32⟩ : BufTy).Contents (Elt Ideal)) (x6 : (⟨S128, .f32⟩ : BufTy).Contents (Elt Ideal))
    (x7 : (⟨S128x64, .f32⟩ : BufTy).Contents (Elt Ideal)) (x8 : (⟨S64, .f32⟩ : BufTy).Contents (Elt Ideal)) :
    val_main_v102 (F := Ideal) x0 x1 x2 x3 x4 x5 x6 x7 x8
      = Cert.PoolTail.biasBefore bcast_S_S64 bcast_S_S100000 bcast_S_S64x64 bcast_S100000_S100000x1_0 bcast_S64_S64x1_0
          bcast_S64x1_S64x64_0_1 bcast_S64_S1x64_1 bcast_S1x64_S100000x64_0_1
          scatter_S64x64_S100000x1_S100000x64_1_0_0_1 scatter_S64_S100000x1_S100000_n_0_0_1
          (val_main_v87 (F := Ideal) x0 x1 x2 x3 x5 x6 x7) x4 x8 := by
  unfold val_main_v102 val_main_v101 val_main_v100 val_main_v99 val_main_v98 val_main_cst_23 val_main_v97 val_main_v96 val_main_v95
    val_main_cst_22 val_main_v94 val_main_cst_21 val_main_v93 val_main_v92 val_main_v91 val_main_cst_20 val_main_v90 val_main_v89
    val_main_v88
  rfl

end Cert.RefTail

end
-- ==== Proof.Bridge.lean ====
/-
  From the launch memory to the result: the idealized kernel's result is the reference's last stage.

  The buffer contents at the nine segment boundaries are followed one boundary at a time. Before the first grid the
  buffers that matter hold the reference's stages of the same arguments (edge list with self-loops, degrees, their
  inverse square roots, normalization). The first grid leaves the projections `X·W` — the reference's first product.
  The stretch between the grids leaves the first layer's aggregate and the bias as a row; the second grid leaves
  `max(A + b, 0)·W'` — the reference's second product of its rectified first layer. The tail leaves the bias-after
  pooling of the second aggregate, and the reference's last stage is the bias-before pooling of the same aggregate, the
  same labels and the same bias; the two agree when the bias is real-valued.
-/
import proofs.«135830_j39642548142524_2_alg».proof.Proof.KernelHost
import proofs.«135830_j39642548142524_2_alg».proof.Proof.KernelGrids
import proofs.«135830_j39642548142524_2_alg».proof.Proof.RefTail

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelHost
open Cert.ReferenceIdeal.Read (val_main_v1 val_main_v2 val_main_v4 val_main_v9 val_main_v10 val_main_cst_2 val_main_v11
  val_main_v27 val_main_v28 val_main_v41 val_main_v45 val_main_v74 val_main_v87 val_main_v102)

variable (m : (ℓ : Loc nD τ sig) → Buf (Elt Ideal) ℓ) (ρ : Dev nD → PrngReg) (c : Dev nD)

/-! ## Boundary 1: after the first stretch -/
theorem b1_v1 : W1 m ρ c (Proc.devRef .tc main_v1) = val_main_v1 (F := Ideal) (m ((c : Thread nD τ).loc main_arg1)) := s0_v1 (W0 m ρ c)
theorem b1_v2 : W1 m ρ c (Proc.devRef .tc main_v2) = val_main_v2 (F := Ideal) (m ((c : Thread nD τ).loc main_arg2)) := s0_v2 (W0 m ρ c)
theorem b1_v4 : W1 m ρ c (Proc.devRef .tc main_v4) = val_main_v4 (F := Ideal) (m ((c : Thread nD τ).loc main_arg3)) := s0_v4 (W0 m ρ c)
theorem b1_v9 : W1 m ρ c (Proc.devRef .tc main_v9) = val_main_v9 (F := Ideal) (m ((c : Thread nD τ).loc main_arg2)) (m ((c : Thread nD τ).loc main_arg3)) := s0_v9 (W0 m ρ c)
theorem b1_v10 : W1 m ρ c (Proc.devRef .tc main_v10) = val_main_v10 (F := Ideal) (m ((c : Thread nD τ).loc main_arg2)) (m ((c : Thread nD τ).loc main_arg3)) := s0_v10 (W0 m ρ c)
theorem b1_cst2 : W1 m ρ c (Proc.devRef .tc main_cst_2) = val_main_cst_2 (F := Ideal) := s0_cst2 (W0 m ρ c)
theorem b1_arg0 : W1 m ρ c (Proc.devRef .tc main_arg0) = (m ((c : Thread nD τ).loc main_arg0)) := s0_keep_arg0 (W0 m ρ c)
theorem b1_arg4 : W1 m ρ c (Proc.devRef .tc main_arg4) = (m ((c : Thread nD τ).loc main_arg4)) := s0_keep_arg4 (W0 m ρ c)
theorem b1_arg5 : W1 m ρ c (Proc.devRef .tc main_arg5) = (m ((c : Thread nD τ).loc main_arg5)) := s0_keep_arg5 (W0 m ρ c)
theorem b1_arg6 : W1 m ρ c (Proc.devRef .tc main_arg6) = (m ((c : Thread nD τ).loc main_arg6)) := s0_keep_arg6 (W0 m ρ c)
theorem b1_arg7 : W1 m ρ c (Proc.devRef .tc main_arg7) = (m ((c : Thread nD τ).loc main_arg7)) := s0_keep_arg7 (W0 m ρ c)
theorem b1_arg8 : W1 m ρ c (Proc.devRef .tc main_arg8) = (m ((c : Thread nD τ).loc main_arg8)) := s0_keep_arg8 (W0 m ρ c)

/-! ## Boundary 2: after the outlined select -/
theorem b2_v11 : W2 m ρ c (Proc.devRef .tc main_v11) = val_main_v11 (F := Ideal) (m ((c : Thread nD τ).loc main_arg2)) (m ((c : Thread nD τ).loc main_arg3)) :=
  s01_v11 (W1 m ρ c) _ _ (b1_v9 m ρ c) (b1_v10 m ρ c) (b1_cst2 m ρ c)
theorem b2_v1 : W2 m ρ c (Proc.devRef .tc main_v1) = val_main_v1 (F := Ideal) (m ((c : Thread nD τ).loc main_arg1)) := (s01_keep_v1 (W1 m ρ c)).trans (b1_v1 m ρ c)
theorem b2_v2 : W2 m ρ c (Proc.devRef .tc main_v2) = val_main_v2 (F := Ideal) (m ((c : Thread nD τ).loc main_arg2)) := (s01_keep_v2 (W1 m ρ c)).trans (b1_v2 m ρ c)
theorem b2_v4 : W2 m ρ c (Proc.devRef .tc main_v4) = val_main_v4 (F := Ideal) (m ((c : Thread nD τ).loc main_arg3)) := (s01_keep_v4 (W1 m ρ c)).trans (b1_v4 m ρ c)
theorem b2_arg0 : W2 m ρ c (Proc.devRef .tc main_arg0) = (m ((c : Thread nD τ).loc main_arg0)) := (s01_keep_arg0 (W1 m ρ c)).trans (b1_arg0 m ρ c)
theorem b2_arg4 : W2 m ρ c (Proc.devRef .tc main_arg4) = (m ((c : Thread nD τ).loc main_arg4)) := (s01_keep_arg4 (W1 m ρ c)).trans (b1_arg4 m ρ c)
theorem b2_arg5 : W2 m ρ c (Proc.devRef .tc main_arg5) = (m ((c : Thread nD τ).loc main_arg5)) := (s01_keep_arg5 (W1 m ρ c)).trans (b1_arg5 m ρ c)
theorem b2_arg6 : W2 m ρ c (Proc.devRef .tc main_arg6) = (m ((c : Thread nD τ).loc main_arg6)) := (s01_keep_arg6 (W1 m ρ c)).trans (b1_arg6 m ρ c)
theorem b2_arg7 : W2 m ρ c (Proc.devRef .tc main_arg7) = (m ((c : Thread nD τ).loc main_arg7)) := (s01_keep_arg7 (W1 m ρ c)).trans (b1_arg7 m ρ c)
theorem b2_arg8 : W2 m ρ c (Proc.devRef .tc main_arg8) = (m ((c : Thread nD τ).loc main_arg8)) := (s01_keep_arg8 (W1 m ρ c)).trans (b1_arg8 m ρ c)

/-! ## Boundary 3: the first grid's entry -/
theorem b3_v27 : W3 m ρ c (Proc.devRef .tc main_v27) = val_main_v27 (F := Ideal) (m ((c : Thread nD τ).loc main_arg1)) (m ((c : Thread nD τ).loc main_arg2)) (m ((c : Thread nD τ).loc main_arg3)) :=
  s02_v27 (W2 m ρ c) _ _ _ (b2_v1 m ρ c) (b2_v2 m ρ c) (b2_v4 m ρ c) (b2_v11 m ρ c)
theorem b3_v1 : W3 m ρ c (Proc.devRef .tc main_v1) = val_main_v1 (F := Ideal) (m ((c : Thread nD τ).loc main_arg1)) := (s02_keep_v1 (W2 m ρ c)).trans (b2_v1 m ρ c)
theorem b3_v2 : W3 m ρ c (Proc.devRef .tc main_v2) = val_main_v2 (F := Ideal) (m ((c : Thread nD τ).loc main_arg2)) := (s02_keep_v2 (W2 m ρ c)).trans (b2_v2 m ρ c)
theorem b3_arg0 : W3 m ρ c (Proc.devRef .tc main_arg0) = (m ((c : Thread nD τ).loc main_arg0)) := (s02_keep_arg0 (W2 m ρ c)).trans (b2_arg0 m ρ c)
theorem b3_arg4 : W3 m ρ c (Proc.devRef .tc main_arg4) = (m ((c : Thread nD τ).loc main_arg4)) := (s02_keep_arg4 (W2 m ρ c)).trans (b2_arg4 m ρ c)
theorem b3_arg5 : W3 m ρ c (Proc.devRef .tc main_arg5) = (m ((c : Thread nD τ).loc main_arg5)) := (s02_keep_arg5 (W2 m ρ c)).trans (b2_arg5 m ρ c)
theorem b3_arg6 : W3 m ρ c (Proc.devRef .tc main_arg6) = (m ((c : Thread nD τ).loc main_arg6)) := (s02_keep_arg6 (W2 m ρ c)).trans (b2_arg6 m ρ c)
theorem b3_arg7 : W3 m ρ c (Proc.devRef .tc main_arg7) = (m ((c : Thread nD τ).loc main_arg7)) := (s02_keep_arg7 (W2 m ρ c)).trans (b2_arg7 m ρ c)
theorem b3_arg8 : W3 m ρ c (Proc.devRef .tc main_arg8) = (m ((c : Thread nD τ).loc main_arg8)) := (s02_keep_arg8 (W2 m ρ c)).trans (b2_arg8 m ρ c)

/-! ## Boundary 4: the first grid's exit -/
/-- The first grid's output array holds the reference's first product. -/
theorem b4_v28 : (W4 m ρ c (Proc.devRef .tc main_v28) : S100000x128.Idx → EReal) = val_main_v28 (F := Ideal) (m ((c : Thread nD τ).loc main_arg0)) (m ((c : Thread nD τ).loc main_arg5)) := by
  refine (W4_arr m ρ c 2).trans ((Cert.KernelGrids.grid0_array (V3 m ρ) c).trans ?_)
  show Cert.KernelGrids.prod0 (W3 m ρ c (Proc.devRef .tc main_arg0)) (W3 m ρ c (Proc.devRef .tc main_arg5)) = _
  rw [b3_arg0, b3_arg5]
  rfl
theorem b4_keep_v1 : W4 m ρ c (Proc.devRef .tc main_v1) = W3 m ρ c (Proc.devRef .tc main_v1) := W4_of_ne m ρ c main_v1 (by decide)
theorem b4_keep_v2 : W4 m ρ c (Proc.devRef .tc main_v2) = W3 m ρ c (Proc.devRef .tc main_v2) := W4_of_ne m ρ c main_v2 (by decide)
theorem b4_keep_v27 : W4 m ρ c (Proc.devRef .tc main_v27) = W3 m ρ c (Proc.devRef .tc main_v27) := W4_of_ne m ρ c main_v27 (by decide)
theorem b4_keep_arg4 : W4 m ρ c (Proc.devRef .tc main_arg4) = W3 m ρ c (Proc.devRef .tc main_arg4) := W4_of_ne m ρ c main_arg4 (by decide)
theorem b4_keep_arg6 : W4 m ρ c (Proc.devRef .tc main_arg6) = W3 m ρ c (Proc.devRef .tc main_arg6) := W4_of_ne m ρ c main_arg6 (by decide)
theorem b4_keep_arg7 : W4 m ρ c (Proc.devRef .tc main_arg7) = W3 m ρ c (Proc.devRef .tc main_arg7) := W4_of_ne m ρ c main_arg7 (by decide)
theorem b4_keep_arg8 : W4 m ρ c (Proc.devRef .tc main_arg8) = W3 m ρ c (Proc.devRef .tc main_arg8) := W4_of_ne m ρ c main_arg8 (by decide)

/-! ## Boundary 5: the second grid's entry -/
theorem b5_v42 : W5 m ρ c (Proc.devRef .tc main_v42) = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg5)) :=
  s1_v42 (W4 m ρ c) _ _ _ _ _ ((b4_keep_v1 m ρ c).trans (b3_v1 m ρ c)) ((b4_keep_v2 m ρ c).trans (b3_v2 m ρ c))
    ((b4_keep_v27 m ρ c).trans (b3_v27 m ρ c)) (b4_v28 m ρ c)
theorem b5_v43 : W5 m ρ c (Proc.devRef .tc main_v43) = shapeCast S1x128 (m ((c : Thread nD τ).loc main_arg6)) shapeCasts_S128_S1x128 := by
  refine (s1_v43 (W4 m ρ c)).trans ?_
  rw [b4_keep_arg6, b3_arg6]
theorem b5_v1 : W5 m ρ c (Proc.devRef .tc main_v1) = val_main_v1 (F := Ideal) (m ((c : Thread nD τ).loc main_arg1)) :=
  (s1_keep_v1 (W4 m ρ c)).trans ((b4_keep_v1 m ρ c).trans (b3_v1 m ρ c))
theorem b5_v2 : W5 m ρ c (Proc.devRef .tc main_v2) = val_main_v2 (F := Ideal) (m ((c : Thread nD τ).loc main_arg2)) :=
  (s1_keep_v2 (W4 m ρ c)).trans ((b4_keep_v2 m ρ c).trans (b3_v2 m ρ c))
theorem b5_v27 : W5 m ρ c (Proc.devRef .tc main_v27) = val_main_v27 (F := Ideal) (m ((c : Thread nD τ).loc main_arg1)) (m ((c : Thread nD τ).loc main_arg2)) (m ((c : Thread nD τ).loc main_arg3)) :=
  (s1_keep_v27 (W4 m ρ c)).trans ((b4_keep_v27 m ρ c).trans (b3_v27 m ρ c))
theorem b5_arg4 : W5 m ρ c (Proc.devRef .tc main_arg4) = (m ((c : Thread nD τ).loc main_arg4)) := (s1_keep_arg4 (W4 m ρ c)).trans ((b4_keep_arg4 m ρ c).trans (b3_arg4 m ρ c))
theorem b5_arg7 : W5 m ρ c (Proc.devRef .tc main_arg7) = (m ((c : Thread nD τ).loc main_arg7)) := (s1_keep_arg7 (W4 m ρ c)).trans ((b4_keep_arg7 m ρ c).trans (b3_arg7 m ρ c))
theorem b5_arg8 : W5 m ρ c (Proc.devRef .tc main_arg8) = (m ((c : Thread nD τ).loc main_arg8)) := (s1_keep_arg8 (W4 m ρ c)).trans ((b4_keep_arg8 m ρ c).trans (b3_arg8 m ρ c))

/-- The bias row the second grid finds, read at a column, is the bias vector there. -/
theorem b5_bias_row (k : Fin 128) : W5 m ρ c (Proc.devRef .tc main_v43) (ix2 (0 : Fin 1) k) = (m ((c : Thread nD τ).loc main_arg6)) (ix1 k) := by
  rw [b5_v43]
  refine shapeCast_apply _ _ (ix2 (0 : Fin 1) k) (ix1 k) ?_
  rw [Shape.rowMajor_val_one, Shape.rowMajor_val_two]
  show k.val = 0 * 128 + k.val
  omega

/-! ## Boundary 6: the second grid's exit -/
/-- The second grid's output array holds the reference's second product, of its rectified first layer. -/
theorem b6_v44 : (W6 m ρ c (Proc.devRef .tc main_v44) : S100000x64.Idx → EReal)
    = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine (W6_arr m ρ c 3).trans ((Cert.KernelGrids.grid1_array (V5 m ρ) c Cert.ReferenceIdeal.Facts₀.bcast_S128_S1x128_1
    Cert.ReferenceIdeal.Facts₀.bcast_S1x128_S100000x128_0_1 Cert.ReferenceIdeal.Facts₀.bcast_S_S100000x128 (m ((c : Thread nD τ).loc main_arg6))
    (b5_bias_row m ρ c)).trans ?_)
  show Cert.KernelGrids.prod1 (Cert.KernelGrids.hidden _ _ _ (W5 m ρ c (Proc.devRef .tc main_v42)) _) (W5 m ρ c (Proc.devRef .tc main_arg7)) = _
  rw [b5_v42, b5_arg7]
  rfl
theorem b6_keep_v1 : W6 m ρ c (Proc.devRef .tc main_v1) = W5 m ρ c (Proc.devRef .tc main_v1) := W6_of_ne m ρ c main_v1 (by decide)
theorem b6_keep_v2 : W6 m ρ c (Proc.devRef .tc main_v2) = W5 m ρ c (Proc.devRef .tc main_v2) := W6_of_ne m ρ c main_v2 (by decide)
theorem b6_keep_v27 : W6 m ρ c (Proc.devRef .tc main_v27) = W5 m ρ c (Proc.devRef .tc main_v27) := W6_of_ne m ρ c main_v27 (by decide)
theorem b6_keep_arg4 : W6 m ρ c (Proc.devRef .tc main_arg4) = W5 m ρ c (Proc.devRef .tc main_arg4) := W6_of_ne m ρ c main_arg4 (by decide)
theorem b6_keep_arg8 : W6 m ρ c (Proc.devRef .tc main_arg8) = W5 m ρ c (Proc.devRef .tc main_arg8) := W6_of_ne m ρ c main_arg8 (by decide)

/-! ## Boundary 9: the result -/
/-- The kernel's result is the bias-after pooling tail of the second layer's aggregate. -/
theorem b9_v75 : W9 m ρ c (Proc.devRef .tc main_v75)
    = Cert.PoolTail.biasAfter bcast_S_S64 bcast_S_S100000 bcast_S_S64x1 bcast_S_S64x64 bcast_S100000_S100000x1_0 bcast_S64_S64x1_0
        bcast_S64x1_S64x64_0_1 bcast_S64_S1x64_1 bcast_S1x64_S64x64_0_1
        scatter_S64x64_S100000x1_S100000x64_1_0_0_1 scatter_S64_S100000x1_S100000_n_0_0_1
        (val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))) (m ((c : Thread nD τ).loc main_arg4)) (m ((c : Thread nD τ).loc main_arg8)) := by
  refine (tail_v75 (W6 m ρ c) _ _ _ _ _ _ _ ((b6_keep_v1 m ρ c).trans (b5_v1 m ρ c)) ((b6_keep_v2 m ρ c).trans (b5_v2 m ρ c))
    ((b6_keep_v27 m ρ c).trans (b5_v27 m ρ c)) (b6_v44 m ρ c)).trans ?_
  rw [b6_keep_arg4, b5_arg4, b6_keep_arg8, b5_arg8]

/-- THE KERNEL'S RESULT IS THE REFERENCE'S LAST STAGE of the same arguments, when the second bias is real-valued. -/
theorem result_eq (hb : ∀ q : Fin 64, ∃ r : ℝ, (m ((c : Thread nD τ).loc main_arg8)) (ix1 q) = (r : EReal)) :
    W9 m ρ c (Proc.devRef .tc main_v75) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [b9_v75, Cert.RefTail.last_stage]
  exact Cert.PoolTail.tails_agree bcast_S_S64 bcast_S_S100000 bcast_S_S64x1 bcast_S_S64x64 bcast_S100000_S100000x1_0
    bcast_S64_S64x1_0 bcast_S64x1_S64x64_0_1 bcast_S64_S1x64_1 bcast_S1x64_S64x64_0_1
    Cert.ReferenceIdeal.Facts₀.bcast_S1x64_S100000x64_0_1 (by decide) (by decide) (by decide)
    scatter_S64x64_S100000x1_S100000x64_1_0_0_1 Cert.ReferenceIdeal.scatter_S64x64_S100000x1_S100000x64_1_0_0_1
    Facts₀.scatter_S64x64_S100000x1_S100000x64_1_0_0_1_wf rfl rfl
    scatter_S64_S100000x1_S100000_n_0_0_1 Cert.ReferenceIdeal.scatter_S64_S100000x1_S100000_n_0_0_1
    Facts₀.scatter_S64_S100000x1_S100000_n_0_0_1_wf rfl rfl _ _ _ hb

end Cert.Bridge

end
-- ==== Proof.FiniteBias.lean ====
/-
  From the precondition: every entry of the second bias is a real number.

  The precondition is a conjunction of six tests `all(|x| < +inf)`, one per float input. The last conjunct is the
  test of the second bias. A conjunction that holds has every conjunct holding; an `all` that holds, holds at every
  index; and an extended real whose absolute value `max x (−x)` lies strictly below `+∞` is neither `+∞` nor `−∞`.
-/
import proofs.«135830_j39642548142524_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteBias

open Idealize.ShloMosaic Idealize.ShloMosaic.ValueIdx
open Cert.Pre_finite_inputs

/-- The f32 pattern of `+inf` is the top extended real. -/
theorem ofBits_inf_f32 : Ideal.ofBits .f32 0x7F800000#32 = (⊤ : EReal) := by
  simp [Ideal.ofBits, Ideal.ieee]

/-- An extended real whose absolute value is strictly below `+∞` is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

instance : Subsingleton S_.Idx := ⟨fun a b => funext fun d => d.elim0⟩

variable [Facts]

theorem bias_real (a0 : FVec Ideal S100000x128 .f32) (a1 a2 : IVec S1600000 32) (a3 : FVec Ideal S1600000 .f32)
    (a4 : IVec S100000 32) (a5 : FVec Ideal S128x128 .f32) (a6 : FVec Ideal S128 .f32) (a7 : FVec Ideal S128x64 .f32)
    (a8 : FVec Ideal S64 .f32) (h : fn (F := Ideal) a0 a1 a2 a3 a4 a5 a6 a7 a8 = fun _ => 1#1) (q : Fin 64) :
    ∃ r : ℝ, a8 (ix1 q) = (r : EReal) := by
  have h0 := congrFun h ix0
  dsimp only [fn, fn_part1] at h0
  obtain ⟨-, h27⟩ := IntOp.andi_eq_one.1 h0
  have hq := Host.reduce_andi_all _ _ _ _ ix0 h27 (ix1 q)
  refine real_of_abs_lt_top _ ?_
  have hc : Ideal.cmp .olt (max (a8 (ix1 q)) (-(a8 (ix1 q)))) (Ideal.ofBits .f32 0x7F800000#32) = 1#1 := hq
  rw [ofBits_inf_f32] at hc
  unfold Ideal.cmp at hc
  by_contra hn
  simp [hn] at hc

end Cert.FiniteBias

end
-- ==== Proof.lean ====
/-
  A two-layer graph convolution with segment-mean pooling: the tiled kernel against the plain reference.

  Both programs append a self-loop to every node, compute weighted in-degrees, their inverse square roots (zero where
  the degree is not positive) and the per-edge normalization `dinv[src]·w·dinv[dst]`; a layer projects the node
  features by a weight matrix, gathers the projected rows by source node, scales them and accumulates them by target
  node. The kernel computes the two projections on a grid of ten row blocks (the second fused with the first layer's
  bias and rectifier) and stores them in a narrower float format; the reference computes them as two whole products.
  At the end the reference adds the second bias to every row, pools the rows by label and divides by the clamped
  count; the kernel pools first and adds the bias to the pooled rows of the non-empty segments.

  On extended reals a format change is the identity, a block of rows of a product is the same rows of the whole
  product, and the two pooling tails agree when the bias is real-valued (Proof/PoolLaw.lean) — which the precondition
  gives (Proof/FiniteBias.lean). The frames of the two kernel programs are the generated ones; the reference's frame is
  its generated run with the result dropped; the idealization rewrote nothing, so there is nothing to preserve.
-/
import proofs.«135830_j39642548142524_2_alg».proof.Defs
import proofs.«135830_j39642548142524_2_alg».proof.Proof.Gen.Kernel
import proofs.«135830_j39642548142524_2_alg».proof.Proof.Gen.Kernel.Frame
import proofs.«135830_j39642548142524_2_alg».proof.Proof.Gen.KernelIdeal
import proofs.«135830_j39642548142524_2_alg».proof.Proof.Gen.KernelIdeal.Frame
import proofs.«135830_j39642548142524_2_alg».proof.Proof.Gen.ReferenceIdeal
import proofs.«135830_j39642548142524_2_alg».proof.Proof.Gen.ReferenceIdeal.Run
import proofs.«135830_j39642548142524_2_alg».proof.Proof.Gen.ReferenceIdeal.Read
import proofs.«135830_j39642548142524_2_alg».proof.Proof.Gen.Pre_finite_inputs
import proofs.«135830_j39642548142524_2_alg».proof.Proof.KernelRun
import proofs.«135830_j39642548142524_2_alg».proof.Proof.Bridge
import proofs.«135830_j39642548142524_2_alg».proof.Proof.FiniteBias
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run; the kernel's result is the last boundary's contents at
    the result buffer, the reference's its last stage, and the two are one array when the second bias is real-valued,
    which the precondition says. -/
theorem algebraic : Cert.algebraic_KernelIdeal_ReferenceIdeal := by
  intro m ρ m' ρ' hpre hagree
  refine ⟨fun c => Cert.KernelIdeal.Gen.W9 m ρ c (Proc.devRef .tc Cert.KernelIdeal.main_v75),
    Cert.KernelIdeal.RunValue.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v102_eq, e0, e1, e2, e3, e4, e5, e6, e7, e8]
  exact (Cert.Bridge.result_eq m ρ c fun q => Cert.FiniteBias.bias_real _ _ _ _ _ _ _ _ _ (hpre c) q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
